-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v31)) (v2 : (c : Dev Cert.KernelIdeal.nD) → Buf (Elt Ideal) ((c.tc : Thread Cert.KernelIdeal.nD Cert.KernelIdeal.τ).loc Cert.KernelIdeal.main_v32)) (v3 : (c : Dev Cert.KernelIdeal.nD) → Buf (Elt Ideal) ((c.tc : Thread Cert.KernelIdeal.nD Cert.KernelIdeal.τ).loc Cert.KernelIdeal.main_v13)) (v4 : (c : Dev Cert.KernelIdeal.nD) → Buf (Elt Ideal) ((c.tc : Thread Cert.KernelIdeal.nD Cert.KernelIdeal.τ).loc Cert.KernelIdeal.main_v16)) (v5 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v31) = v1 c
          ∧ r.2.mem ((c.tc : Thread Cert.KernelIdeal.nD Cert.KernelIdeal.τ).loc Cert.KernelIdeal.main_v32) = v2 c
          ∧ r.2.mem ((c.tc : Thread Cert.KernelIdeal.nD Cert.KernelIdeal.τ).loc Cert.KernelIdeal.main_v13) = v3 c
          ∧ r.2.mem ((c.tc : Thread Cert.KernelIdeal.nD Cert.KernelIdeal.τ).loc Cert.KernelIdeal.main_v16) = v4 c
          ∧ r.2.mem ((c.tc : Thread Cert.KernelIdeal.nD Cert.KernelIdeal.τ).loc Cert.KernelIdeal.main_v19) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_v13) = v3 c
          ∧ r.2.mem ((c.tc : Thread Cert.ReferenceIdeal.nD Cert.ReferenceIdeal.τ).loc Cert.ReferenceIdeal.main_v16) = v4 c
          ∧ r.2.mem ((c.tc : Thread Cert.ReferenceIdeal.nD Cert.ReferenceIdeal.τ).loc Cert.ReferenceIdeal.main_v19) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S2x2048 : Shape := ⟨2, ![2, 2048]⟩
abbrev S10002x1024 : Shape := ⟨2, ![10002, 1024]⟩
abbrev S256x1024 : Shape := ⟨2, ![256, 1024]⟩
abbrev S20000x256 : Shape := ⟨2, ![20000, 256]⟩
abbrev S64x1024 : Shape := ⟨2, ![64, 1024]⟩
abbrev S20000x64 : Shape := ⟨2, ![20000, 64]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S10002x1024 : S_.BroadcastsInDim S10002x1024 (![] : Fin 0 → Fin S10002x1024.rank)
  reducesTo_S10002x1024_S_d0_1 : S10002x1024.ReducesTo [0, 1] S_
  bcast_S_S256x1024 : S_.BroadcastsInDim S256x1024 (![] : Fin 0 → Fin S256x1024.rank)
  reducesTo_S256x1024_S_d0_1 : S256x1024.ReducesTo [0, 1] S_
  bcast_S_S20000x256 : S_.BroadcastsInDim S20000x256 (![] : Fin 0 → Fin S20000x256.rank)
  reducesTo_S20000x256_S_d0_1 : S20000x256.ReducesTo [0, 1] S_
  bcast_S_S64x1024 : S_.BroadcastsInDim S64x1024 (![] : Fin 0 → Fin S64x1024.rank)
  reducesTo_S64x1024_S_d0_1 : S64x1024.ReducesTo [0, 1] S_
  bcast_S_S20000x64 : S_.BroadcastsInDim S20000x64 (![] : Fin 0 → Fin S20000x64.rank)
  reducesTo_S20000x64_S_d0_1 : S20000x64.ReducesTo [0, 1] S_

variable [Facts]

def fn_part1 {F : FTy → Type} [FloatOps F] (main_arg5 : FVec F S64x1024 .f32) (main_arg6 : FVec F S20000x64 .f32) (main_v13 : IVec S_ 1) (main_v16 : IVec S20000x256 1) : IVec S_ 1 :=
  let main_c_5 : IVec S_ 1 := constantI S_ 1 1#1
  let main_v17 : IVec S_ 1 := (fun x v => Host.reduce IntOp.andi x v reducesTo_S20000x256_S_d0_1 h_S_) main_v16 main_c_5
  let main_v18 : IVec S_ 1 := andi main_v13 main_v17
  let main_v19 : FVec F S64x1024 .f32 := Host.absf main_arg5
  let main_cst_6 : FVec F S_ .f32 := constant S_ .f32 0x7F800000#32
  let main_v20 : FVec F S64x1024 .f32 := broadcastInDim S64x1024 ![] bcast_S_S64x1024 main_cst_6
  let main_v21 : IVec S64x1024 1 := cmpf .olt main_v19 main_v20
  let main_c_7 : IVec S_ 1 := constantI S_ 1 1#1
  let main_v22 : IVec S_ 1 := (fun x v => Host.reduce IntOp.andi x v reducesTo_S64x1024_S_d0_1 h_S_) main_v21 main_c_7
  let main_v23 : IVec S_ 1 := andi main_v18 main_v22
  let main_v24 : FVec F S20000x64 .f32 := Host.absf main_arg6
  let main_cst_8 : FVec F S_ .f32 := constant S_ .f32 0x7F800000#32
  let main_v25 : FVec F S20000x64 .f32 := broadcastInDim S20000x64 ![] bcast_S_S20000x64 main_cst_8
  let main_v26 : IVec S20000x64 1 := cmpf .olt main_v24 main_v25
  let main_c_9 : IVec S_ 1 := constantI S_ 1 1#1
  let main_v27 : IVec S_ 1 := (fun x v => Host.reduce IntOp.andi x v reducesTo_S20000x64_S_d0_1 h_S_) main_v26 main_c_9
  let main_v28 : IVec S_ 1 := andi main_v23 main_v27
  main_v28

def fn {F : FTy → Type} [FloatOps F] (main_arg0 : FVec F S2x2048x1024 .f32) (main_arg1 : IVec S2x2048 32) (main_arg2 : FVec F S10002x1024 .f32) (main_arg3 : FVec F S256x1024 .f32) (main_arg4 : FVec F S20000x256 .f32) (main_arg5 : FVec F S64x1024 .f32) (main_arg6 : FVec F S20000x64 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S10002x1024 .f32 := Host.absf main_arg2
  let main_cst_0 : FVec F S_ .f32 := constant S_ .f32 0x7F800000#32
  let main_v5 : FVec F S10002x1024 .f32 := broadcastInDim S10002x1024 ![] bcast_S_S10002x1024 main_cst_0
  let main_v6 : IVec S10002x1024 1 := cmpf .olt main_v4 main_v5
  let main_c_1 : IVec S_ 1 := constantI S_ 1 1#1
  let main_v7 : IVec S_ 1 := (fun x v => Host.reduce IntOp.andi x v reducesTo_S10002x1024_S_d0_1 h_S_) main_v6 main_c_1
  let main_v8 : IVec S_ 1 := andi main_v3 main_v7
  let main_v9 : FVec F S256x1024 .f32 := Host.absf main_arg3
  let main_cst_2 : FVec F S_ .f32 := constant S_ .f32 0x7F800000#32
  let main_v10 : FVec F S256x1024 .f32 := broadcastInDim S256x1024 ![] bcast_S_S256x1024 main_cst_2
  let main_v11 : IVec S256x1024 1 := cmpf .olt main_v9 main_v10
  let main_c_3 : IVec S_ 1 := constantI S_ 1 1#1
  let main_v12 : IVec S_ 1 := (fun x v => Host.reduce IntOp.andi x v reducesTo_S256x1024_S_d0_1 h_S_) main_v11 main_c_3
  let main_v13 : IVec S_ 1 := andi main_v8 main_v12
  let main_v14 : FVec F S20000x256 .f32 := Host.absf main_arg4
  let main_cst_4 : FVec F S_ .f32 := constant S_ .f32 0x7F800000#32
  let main_v15 : FVec F S20000x256 .f32 := broadcastInDim S20000x256 ![] bcast_S_S20000x256 main_cst_4
  let main_v16 : IVec S20000x256 1 := cmpf .olt main_v14 main_v15
  fn_part1 (F := F) main_arg5 main_arg6 main_v13 main_v16
-- ==== Kernel.lean ====
abbrev S2x2048x1024 : Shape := ⟨3, ![2, 2048, 1024]⟩
abbrev S2x2048 : Shape := ⟨2, ![2, 2048]⟩
abbrev S10002x1024 : Shape := ⟨2, ![10002, 1024]⟩
abbrev S256x1024 : Shape := ⟨2, ![256, 1024]⟩
abbrev S20000x256 : Shape := ⟨2, ![20000, 256]⟩
abbrev S64x1024 : Shape := ⟨2, ![64, 1024]⟩
abbrev S20000x64 : Shape := ⟨2, ![20000, 64]⟩
abbrev S4096x1024 : Shape := ⟨2, ![4096, 1024]⟩
abbrev S4096 : Shape := ⟨1, ![4096]⟩
abbrev S_ : Shape := ⟨0, ![]⟩
abbrev S4096x1 : Shape := ⟨2, ![4096, 1]⟩
abbrev S4096x10002 : Shape := ⟨2, ![4096, 10002]⟩
abbrev S128x1024 : Shape := ⟨2, ![128, 1024]⟩
abbrev S128x10002 : Shape := ⟨2, ![128, 10002]⟩
abbrev S4096x20000 : Shape := ⟨2, ![4096, 20000]⟩
abbrev S64x1 : Shape := ⟨2, ![64, 1]⟩
abbrev S64x20000 : Shape := ⟨2, ![64, 20000]⟩
abbrev S64x256 : Shape := ⟨2, ![64, 256]⟩
abbrev S64x64 : Shape := ⟨2, ![64, 64]⟩

abbrev nBuf : Space → Nat
  | .hbm => 58
  | .vmem => 21
  | .smem => 0
  | _ => 0

abbrev bufTy : (tb : Table) → Fin (tcTables nBuf tb) → BufTy
  | .hbm, ⟨0, _⟩ => ⟨S2x2048x1024, .f32⟩
  | .hbm, ⟨1, _⟩ => ⟨S2x2048, .i32⟩
  | .hbm, ⟨2, _⟩ => ⟨S10002x1024, .f32⟩
  | .hbm, ⟨3, _⟩ => ⟨S256x1024, .f32⟩
  | .hbm, ⟨4, _⟩ => ⟨S20000x256, .f32⟩
  | .hbm, ⟨5, _⟩ => ⟨S64x1024, .f32⟩
  | .hbm, ⟨6, _⟩ => ⟨S20000x64, .f32⟩
  | .hbm, ⟨7, _⟩ => ⟨S4096x1024, .f32⟩
  | .hbm, ⟨8, _⟩ => ⟨S4096, .i32⟩
  | .hbm, ⟨9, _⟩ => ⟨S_, .i32⟩
  | .hbm, ⟨10, _⟩ => ⟨S4096, .i32⟩
  | .hbm, ⟨11, _⟩ => ⟨S4096, .i1⟩
  | .hbm, ⟨12, _⟩ => ⟨S_, .i32⟩
  | .hbm, ⟨13, _⟩ => ⟨S4096, .i32⟩
  | .hbm, ⟨14, _⟩ => ⟨S4096, .i1⟩
  | .hbm, ⟨15, _⟩ => ⟨S4096, .i1⟩
  | .hbm, ⟨16, _⟩ => ⟨S_, .i32⟩
  | .hbm, ⟨17, _⟩ => ⟨S4096, .i32⟩
  | .hbm, ⟨18, _⟩ => ⟨S4096, .i1⟩
  | .hbm, ⟨19, _⟩ => ⟨S_, .i32⟩
  | .hbm, ⟨20, _⟩ => ⟨S4096, .i32⟩
  | .hbm, ⟨21, _⟩ => ⟨S4096, .i1⟩
  | .hbm, ⟨22, _⟩ => ⟨S4096, .i1⟩
  | .hbm, ⟨23, _⟩ => ⟨S_, .i32⟩
  | .hbm, ⟨24, _⟩ => ⟨S_, .i32⟩
  | .hbm, ⟨25, _⟩ => ⟨S4096, .i32⟩
  | .hbm, ⟨26, _⟩ => ⟨S4096, .i32⟩
  | .hbm, ⟨27, _⟩ => ⟨S_, .i32⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S_, .i32⟩
  | .hbm, ⟨32, _⟩ => ⟨S4096, .i32⟩
  | .hbm, ⟨33, _⟩ => ⟨S4096, .i32⟩
  | .hbm, ⟨34, _⟩ => ⟨S_, .i32⟩
  | .hbm, ⟨35, _⟩ => ⟨S_, .i32⟩
  | .hbm, ⟨36, _⟩ => ⟨S4096, .i32⟩
  | .hbm, ⟨37, _⟩ => ⟨S4096, .i32⟩
  | .hbm, ⟨38, _⟩ => ⟨S_, .i32⟩
  | .hbm, ⟨39, _⟩ => ⟨S4096, .i32⟩
  | .hbm, ⟨40, _⟩ => ⟨S4096, .i32⟩
  | .hbm, ⟨41, _⟩ => ⟨S_, .i32⟩
  | .hbm, ⟨42, _⟩ => ⟨S_, .i32⟩
  | .hbm, ⟨43, _⟩ => ⟨S4096, .i32⟩
  | .hbm, ⟨44, _⟩ => ⟨S4096, .i32⟩
  | .hbm, ⟨45, _⟩ => ⟨S4096x1024, .bf16⟩
  | .hbm, ⟨46, _⟩ => ⟨S10002x1024, .bf16⟩
  | .hbm, ⟨47, _⟩ => ⟨S256x1024, .bf16⟩
  | .hbm, ⟨48, _⟩ => ⟨S20000x256, .bf16⟩
  | .hbm, ⟨49, _⟩ => ⟨S64x1024, .bf16⟩
  | .hbm, ⟨50, _⟩ => ⟨S20000x64, .bf16⟩
  | .hbm, ⟨51, _⟩ => ⟨S4096, .f32⟩
  | .hbm, ⟨52, _⟩ => ⟨S4096x1, .f32⟩
  | .hbm, ⟨53, _⟩ => ⟨S4096, .f32⟩
  | .hbm, ⟨54, _⟩ => ⟨S4096x1, .f32⟩
  | .hbm, ⟨55, _⟩ => ⟨S4096x10002, .f32⟩
  | .hbm, ⟨56, _⟩ => ⟨S4096x20000, .f32⟩
  | .hbm, ⟨57, _⟩ => ⟨S4096x20000, .f32⟩
  | .local _ .vmem, ⟨0, _⟩ => ⟨S128x1024, .bf16⟩
  | .local _ .vmem, ⟨1, _⟩ => ⟨S128x1024, .bf16⟩
  | .local _ .vmem, ⟨2, _⟩ => ⟨S10002x1024, .bf16⟩
  | .local _ .vmem, ⟨3, _⟩ => ⟨S128x10002, .f32⟩
  | .local _ .vmem, ⟨4, _⟩ => ⟨S128x10002, .f32⟩
  | .local _ .vmem, ⟨5, _⟩ => ⟨S64x1024, .bf16⟩
  | .local _ .vmem, ⟨6, _⟩ => ⟨S64x1024, .bf16⟩
  | .local _ .vmem, ⟨7, _⟩ => ⟨S256x1024, .bf16⟩
  | .local _ .vmem, ⟨8, _⟩ => ⟨S20000x256, .bf16⟩
  | .local _ .vmem, ⟨9, _⟩ => ⟨S64x1, .f32⟩
  | .local _ .vmem, ⟨10, _⟩ => ⟨S64x1, .f32⟩
  | .local _ .vmem, ⟨11, _⟩ => ⟨S64x20000, .f32⟩
  | .local _ .vmem, ⟨12, _⟩ => ⟨S64x20000, .f32⟩
  | .local _ .vmem, ⟨13, _⟩ => ⟨S64x1024, .bf16⟩
  | .local _ .vmem, ⟨14, _⟩ => ⟨S64x1024, .bf16⟩
  | .local _ .vmem, ⟨15, _⟩ => ⟨S64x1024, .bf16⟩
  | .local _ .vmem, ⟨16, _⟩ => ⟨S20000x64, .bf16⟩
  | .local _ .vmem, ⟨17, _⟩ => ⟨S64x1, .f32⟩
  | .local _ .vmem, ⟨18, _⟩ => ⟨S64x1, .f32⟩
  | .local _ .vmem, ⟨19, _⟩ => ⟨S64x20000, .f32⟩
  | .local _ .vmem, ⟨20, _⟩ => ⟨S64x20000, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_call0_v0 : Ref sig .tc := ⟨.hbm, 24, rfl⟩
abbrev main_call0_v1 : Ref sig .tc := ⟨.hbm, 25, rfl⟩
abbrev main_v12 : Ref sig .tc := ⟨.hbm, 26, rfl⟩
abbrev main_c_4 : Ref sig .tc := ⟨.hbm, 27, rfl⟩
abbrev main_call1_v0 : Ref sig .tc := ⟨.hbm, 28, rfl⟩
abbrev main_call1_v1 : Ref sig .tc := ⟨.hbm, 29, rfl⟩
abbrev main_v13 : Ref sig .tc := ⟨.hbm, 30, rfl⟩
abbrev main_c_5 : Ref sig .tc := ⟨.hbm, 31, rfl⟩
abbrev main_v14 : Ref sig .tc := ⟨.hbm, 32, rfl⟩
abbrev main_v15 : Ref sig .tc := ⟨.hbm, 33, rfl⟩
abbrev main_c_6 : Ref sig .tc := ⟨.hbm, 34, rfl⟩
abbrev main_call2_v0 : Ref sig .tc := ⟨.hbm, 35, rfl⟩
abbrev main_call2_v1 : Ref sig .tc := ⟨.hbm, 36, rfl⟩
abbrev main_v16 : Ref sig .tc := ⟨.hbm, 37, rfl⟩
abbrev main_c_7 : Ref sig .tc := ⟨.hbm, 38, rfl⟩
abbrev main_v17 : Ref sig .tc := ⟨.hbm, 39, rfl⟩
abbrev main_v18 : Ref sig .tc := ⟨.hbm, 40, rfl⟩
abbrev main_c_8 : Ref sig .tc := ⟨.hbm, 41, rfl⟩
abbrev main_call3_v0 : Ref sig .tc := ⟨.hbm, 42, rfl⟩
abbrev main_call3_v1 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg4_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18
abbrev cc2_sem4_0 : DmaSem sig := 19
abbrev cc2_sem4_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10002x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x10002 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S20000x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S64x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S64x20000 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S64x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S20000x64 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S64x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S64x20000 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  shapeCasts_S2x2048x1024_S4096x1024 : S2x2048x1024.ShapeCasts S4096x1024
  shapeCasts_S2x2048_S4096 : S2x2048.ShapeCasts S4096
  bcast_S_S4096 : S_.BroadcastsInDim S4096 (![] : Fin 0 → Fin S4096.rank)
  bitsLt_bf16_f32 : FTy.bits .bf16 < FTy.bits .f32
  shapeCasts_S4096_S4096x1 : S4096.ShapeCasts S4096x1
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S10002x1024_S10002x1024_0_0 : ∀ a, (![0, 0] : Fin 2 → Nat) a + S10002x1024.size a ≤ S10002x1024.size a
  h_S10002x1024 : 0 < S10002x1024.numel
  shapeCasts_S10002x1024_S10002x1024 : S10002x1024.ShapeCasts S10002x1024
  inb_S128x10002_S128x10002_0_0 : ∀ a, (![0, 0] : Fin 2 → Nat) a + S128x10002.size a ≤ S128x10002.size a
  h_S128x10002 : 0 < S128x10002.numel
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S20000x256_S20000x256_0_0 : ∀ a, (![0, 0] : Fin 2 → Nat) a + S20000x256.size a ≤ S20000x256.size a
  h_S20000x256 : 0 < S20000x256.numel
  shapeCasts_S20000x256_S20000x256 : S20000x256.ShapeCasts S20000x256
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x20000 : S64x1.Broadcasts S64x20000
  inb_S64x20000_S64x20000_0_0 : ∀ a, (![0, 0] : Fin 2 → Nat) a + S64x20000.size a ≤ S64x20000.size a
  h_S64x20000 : 0 < S64x20000.numel
  inb_S20000x64_S20000x64_0_0 : ∀ a, (![0, 0] : Fin 2 → Nat) a + S20000x64.size a ≤ S20000x64.size a
  h_S20000x64 : 0 < S20000x64.numel
  shapeCasts_S20000x64_S20000x64 : S20000x64.ShapeCasts S20000x64
  dot_S128x1024_S10002x1024_S128x10002_1_1_0_0_n_n_wf : DotDims.WF S128x1024 S10002x1024 S128x10002 [1] [1] [0] [0] [] []
  dot_S64x1024_S256x1024_S64x256_1_1_0_0_n_n_wf : DotDims.WF S64x1024 S256x1024 S64x256 [1] [1] [0] [0] [] []
  dot_S64x256_S20000x256_S64x20000_1_1_0_0_n_n_wf : DotDims.WF S64x256 S20000x256 S64x20000 [1] [1] [0] [0] [] []
  dot_S64x1024_S64x1024_S64x64_1_1_0_0_n_n_wf : DotDims.WF S64x1024 S64x1024 S64x64 [1] [1] [0] [0] [] []
  dot_S64x64_S20000x64_S64x20000_1_1_0_0_n_n_wf : DotDims.WF S64x64 S20000x64 S64x20000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S4096x1024.size a
  hwx0_0 : ∀ i : grid0.Coords, EltTy.bits .bf16 = 32 ∨ (Rect.block (s := S4096x1024) S128x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10002x1024.size a ≤ S10002x1024.size a
  hwx0_1 : ∀ i : grid0.Coords, EltTy.bits .bf16 = 32 ∨ (Rect.block (s := S10002x1024) S10002x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x10002.size a ≤ S4096x10002.size a
  hwx0_2 : ∀ i : grid0.Coords, EltTy.bits .f32 = 32 ∨ (Rect.block (s := S4096x10002) S128x10002.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x1024.size a ≤ S4096x1024.size a
  hwx1_0 : ∀ i : grid1.Coords, EltTy.bits .bf16 = 32 ∨ (Rect.block (s := S4096x1024) S64x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x1024.size a ≤ S256x1024.size a
  hwx1_1 : ∀ i : grid1.Coords, EltTy.bits .bf16 = 32 ∨ (Rect.block (s := S256x1024) S256x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S20000x256.size a ≤ S20000x256.size a
  hwx1_2 : ∀ i : grid1.Coords, EltTy.bits .bf16 = 32 ∨ (Rect.block (s := S20000x256) S20000x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S64x1.size a ≤ S4096x1.size a
  hwx1_3 : ∀ i : grid1.Coords, EltTy.bits .f32 = 32 ∨ (Rect.block (s := S4096x1) S64x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S64x20000.size a ≤ S4096x20000.size a
  hwx1_4 : ∀ i : grid1.Coords, EltTy.bits .f32 = 32 ∨ (Rect.block (s := S4096x20000) S64x20000.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S64x1024.size a ≤ S4096x1024.size a
  hwx2_0 : ∀ i : grid2.Coords, EltTy.bits .bf16 = 32 ∨ (Rect.block (s := S4096x1024) S64x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x1024.size a ≤ S64x1024.size a
  hwx2_1 : ∀ i : grid2.Coords, EltTy.bits .bf16 = 32 ∨ (Rect.block (s := S64x1024) S64x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S20000x64.size a ≤ S20000x64.size a
  hwx2_2 : ∀ i : grid2.Coords, EltTy.bits .bf16 = 32 ∨ (Rect.block (s := S20000x64) S20000x64.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S64x1.size a ≤ S4096x1.size a
  hwx2_3 : ∀ i : grid2.Coords, EltTy.bits .f32 = 32 ∨ (Rect.block (s := S4096x1) S64x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S64x20000.size a ≤ S4096x20000.size a
  hwx2_4 : ∀ i : grid2.Coords, EltTy.bits .f32 = 32 ∨ (Rect.block (s := S4096x20000) S64x20000.size (cc2_transform_4 i) (hinb2_4 i)).WholeWords (EltTy.packing .f32)

variable [Facts₀]

def dot_S128x1024_S10002x1024_S128x10002_1_1_0_0_n_n : DotDims S128x1024 S10002x1024 S128x10002 where
  lhsContracting := [1]
  rhsContracting := [1]
  lhsNonContracting := [0]
  rhsNonContracting := [0]
  lhsBatch := []
  rhsBatch := []
  wf := dot_S128x1024_S10002x1024_S128x10002_1_1_0_0_n_n_wf
def dot_S64x1024_S256x1024_S64x256_1_1_0_0_n_n : DotDims S64x1024 S256x1024 S64x256 where
  lhsContracting := [1]
  rhsContracting := [1]
  lhsNonContracting := [0]
  rhsNonContracting := [0]
  lhsBatch := []
  rhsBatch := []
  wf := dot_S64x1024_S256x1024_S64x256_1_1_0_0_n_n_wf
def dot_S64x256_S20000x256_S64x20000_1_1_0_0_n_n : DotDims S64x256 S20000x256 S64x20000 where
  lhsContracting := [1]
  rhsContracting := [1]
  lhsNonContracting := [0]
  rhsNonContracting := [0]
  lhsBatch := []
  rhsBatch := []
  wf := dot_S64x256_S20000x256_S64x20000_1_1_0_0_n_n_wf
def dot_S64x1024_S64x1024_S64x64_1_1_0_0_n_n : DotDims S64x1024 S64x1024 S64x64 where
  lhsContracting := [1]
  rhsContracting := [1]
  lhsNonContracting := [0]
  rhsNonContracting := [0]
  lhsBatch := []
  rhsBatch := []
  wf := dot_S64x1024_S64x1024_S64x64_1_1_0_0_n_n_wf
def dot_S64x64_S20000x64_S64x20000_1_1_0_0_n_n : DotDims S64x64 S20000x64 S64x20000 where
  lhsContracting := [1]
  rhsContracting := [1]
  lhsNonContracting := [0]
  rhsNonContracting := [0]
  lhsBatch := []
  rhsBatch := []
  wf := dot_S64x64_S20000x64_S64x20000_1_1_0_0_n_n_wf

abbrev win0_0 : Pipeline.Window sig grid0 :=
  Pipeline.Window.ofSpec (Memref.whole main_v20) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S10002x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S128x10002.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v20) S64x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S256x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v23) S20000x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S64x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v31) S64x20000.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v20) S64x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S64x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v25) S20000x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v29) S64x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v32) S64x20000.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S2x2048 : Shape := ⟨2, ![2, 2048]⟩
abbrev S10002x1024 : Shape := ⟨2, ![10002, 1024]⟩
abbrev S256x1024 : Shape := ⟨2, ![256, 1024]⟩
abbrev S20000x256 : Shape := ⟨2, ![20000, 256]⟩
abbrev S64x1024 : Shape := ⟨2, ![64, 1024]⟩
abbrev S20000x64 : Shape := ⟨2, ![20000, 64]⟩
abbrev S4096x1024 : Shape := ⟨2, ![4096, 1024]⟩
abbrev S4096 : Shape := ⟨1, ![4096]⟩
abbrev S_ : Shape := ⟨0, ![]⟩
abbrev S4096x10002 : Shape := ⟨2, ![4096, 10002]⟩
abbrev S4096x256 : Shape := ⟨2, ![4096, 256]⟩
abbrev S4096x20000 : Shape := ⟨2, ![4096, 20000]⟩
abbrev S4096x1 : Shape := ⟨2, ![4096, 1]⟩
abbrev S4096x64 : Shape := ⟨2, ![4096, 64]⟩

abbrev nBuf : Space → Nat
  | .hbm => 58
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048, .i32⟩
  | .hbm, ⟨2, _⟩ => ⟨S10002x1024, .f32⟩
  | .hbm, ⟨3, _⟩ => ⟨S256x1024, .f32⟩
  | .hbm, ⟨4, _⟩ => ⟨S20000x256, .f32⟩
  | .hbm, ⟨5, _⟩ => ⟨S64x1024, .f32⟩
  | .hbm, ⟨6, _⟩ => ⟨S20000x64, .f32⟩
  | .hbm, ⟨7, _⟩ => ⟨S4096x1024, .f32⟩
  | .hbm, ⟨8, _⟩ => ⟨S4096, .i32⟩
  | .hbm, ⟨9, _⟩ => ⟨S_, .i32⟩
  | .hbm, ⟨10, _⟩ => ⟨S4096, .i32⟩
  | .hbm, ⟨11, _⟩ => ⟨S4096, .i1⟩
  | .hbm, ⟨12, _⟩ => ⟨S_, .i32⟩
  | .hbm, ⟨13, _⟩ => ⟨S4096, .i32⟩
  | .hbm, ⟨14, _⟩ => ⟨S4096, .i1⟩
  | .hbm, ⟨15, _⟩ => ⟨S4096, .i1⟩
  | .hbm, ⟨16, _⟩ => ⟨S_, .i32⟩
  | .hbm, ⟨17, _⟩ => ⟨S4096, .i32⟩
  | .hbm, ⟨18, _⟩ => ⟨S4096, .i1⟩
  | .hbm, ⟨19, _⟩ => ⟨S_, .i32⟩
  | .hbm, ⟨20, _⟩ => ⟨S4096, .i32⟩
  | .hbm, ⟨21, _⟩ => ⟨S4096, .i1⟩
  | .hbm, ⟨22, _⟩ => ⟨S4096, .i1⟩
  | .hbm, ⟨23, _⟩ => ⟨S_, .i32⟩
  | .hbm, ⟨24, _⟩ => ⟨S_, .i32⟩
  | .hbm, ⟨25, _⟩ => ⟨S4096, .i32⟩
  | .hbm, ⟨26, _⟩ => ⟨S4096, .i32⟩
  | .hbm, ⟨27, _⟩ => ⟨S_, .i32⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S_, .i32⟩
  | .hbm, ⟨32, _⟩ => ⟨S4096, .i32⟩
  | .hbm, ⟨33, _⟩ => ⟨S4096, .i32⟩
  | .hbm, ⟨34, _⟩ => ⟨S_, .i32⟩
  | .hbm, ⟨35, _⟩ => ⟨S_, .i32⟩
  | .hbm, ⟨36, _⟩ => ⟨S4096, .i32⟩
  | .hbm, ⟨37, _⟩ => ⟨S4096, .i32⟩
  | .hbm, ⟨38, _⟩ => ⟨S_, .i32⟩
  | .hbm, ⟨39, _⟩ => ⟨S4096, .i32⟩
  | .hbm, ⟨40, _⟩ => ⟨S4096, .i32⟩
  | .hbm, ⟨41, _⟩ => ⟨S_, .i32⟩
  | .hbm, ⟨42, _⟩ => ⟨S_, .i32⟩
  | .hbm, ⟨43, _⟩ => ⟨S4096, .i32⟩
  | .hbm, ⟨44, _⟩ => ⟨S4096, .i32⟩
  | .hbm, ⟨45, _⟩ => ⟨S4096x10002, .f32⟩
  | .hbm, ⟨46, _⟩ => ⟨S4096x256, .f32⟩
  | .hbm, ⟨47, _⟩ => ⟨S4096x20000, .f32⟩
  | .hbm, ⟨48, _⟩ => ⟨S4096x1, .i1⟩
  | .hbm, ⟨49, _⟩ => ⟨S4096x1, .f32⟩
  | .hbm, ⟨50, _⟩ => ⟨S4096x20000, .f32⟩
  | .hbm, ⟨51, _⟩ => ⟨S4096x20000, .f32⟩
  | .hbm, ⟨52, _⟩ => ⟨S4096x64, .f32⟩
  | .hbm, ⟨53, _⟩ => ⟨S4096x20000, .f32⟩
  | .hbm, ⟨54, _⟩ => ⟨S4096x1, .i1⟩
  | .hbm, ⟨55, _⟩ => ⟨S4096x1, .f32⟩
  | .hbm, ⟨56, _⟩ => ⟨S4096x20000, .f32⟩
  | .hbm, ⟨57, _⟩ => ⟨S4096x20000, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_call0_v0 : Ref sig .tc := ⟨.hbm, 24, rfl⟩
abbrev main_call0_v1 : Ref sig .tc := ⟨.hbm, 25, rfl⟩
abbrev main_v12 : Ref sig .tc := ⟨.hbm, 26, rfl⟩
abbrev main_c_4 : Ref sig .tc := ⟨.hbm, 27, rfl⟩
abbrev main_call1_v0 : Ref sig .tc := ⟨.hbm, 28, rfl⟩
abbrev main_call1_v1 : Ref sig .tc := ⟨.hbm, 29, rfl⟩
abbrev main_v13 : Ref sig .tc := ⟨.hbm, 30, rfl⟩
abbrev main_c_5 : Ref sig .tc := ⟨.hbm, 31, rfl⟩
abbrev main_v14 : Ref sig .tc := ⟨.hbm, 32, rfl⟩
abbrev main_v15 : Ref sig .tc := ⟨.hbm, 33, rfl⟩
abbrev main_c_6 : Ref sig .tc := ⟨.hbm, 34, rfl⟩
abbrev main_call2_v0 : Ref sig .tc := ⟨.hbm, 35, rfl⟩
abbrev main_call2_v1 : Ref sig .tc := ⟨.hbm, 36, rfl⟩
abbrev main_v16 : Ref sig .tc := ⟨.hbm, 37, rfl⟩
abbrev main_c_7 : Ref sig .tc := ⟨.hbm, 38, rfl⟩
abbrev main_v17 : Ref sig .tc := ⟨.hbm, 39, rfl⟩
abbrev main_v18 : Ref sig .tc := ⟨.hbm, 40, rfl⟩
abbrev main_c_8 : Ref sig .tc := ⟨.hbm, 41, rfl⟩
abbrev main_call3_v0 : Ref sig .tc := ⟨.hbm, 42, rfl⟩
abbrev main_call3_v1 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩

abbrev nD : Nat := 1
abbrev τ : Topo := Topo.v7x

variable {F : FTy → Type} [FloatOps F]

class Facts₀ : Prop where
  shapeCasts_S2x2048x1024_S4096x1024 : S2x2048x1024.ShapeCasts S4096x1024
  shapeCasts_S2x2048_S4096 : S2x2048.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x20000_0_1 : S4096x1.BroadcastsInDim S4096x20000 (![0, 1] : Fin 2 → Fin S4096x20000.rank)
  dot_S4096x1024_S10002x1024_S4096x10002_1_1_0_0_n_n_wf : DotDims.WF S4096x1024 S10002x1024 S4096x10002 [1] [1] [0] [0] [] []
  dot_S4096x1024_S256x1024_S4096x256_1_1_0_0_n_n_wf : DotDims.WF S4096x1024 S256x1024 S4096x256 [1] [1] [0] [0] [] []
  dot_S4096x256_S20000x256_S4096x20000_1_1_0_0_n_n_wf : DotDims.WF S4096x256 S20000x256 S4096x20000 [1] [1] [0] [0] [] []
  dot_S4096x1024_S64x1024_S4096x64_1_1_0_0_n_n_wf : DotDims.WF S4096x1024 S64x1024 S4096x64 [1] [1] [0] [0] [] []
  dot_S4096x64_S20000x64_S4096x20000_1_1_0_0_n_n_wf : DotDims.WF S4096x64 S20000x64 S4096x20000 [1] [1] [0] [0] [] []

variable [Facts₀]

def dot_S4096x1024_S10002x1024_S4096x10002_1_1_0_0_n_n : DotDims S4096x1024 S10002x1024 S4096x10002 where
  lhsContracting := [1]
  rhsContracting := [1]
  lhsNonContracting := [0]
  rhsNonContracting := [0]
  lhsBatch := []
  rhsBatch := []
  wf := dot_S4096x1024_S10002x1024_S4096x10002_1_1_0_0_n_n_wf
def dot_S4096x1024_S256x1024_S4096x256_1_1_0_0_n_n : DotDims S4096x1024 S256x1024 S4096x256 where
  lhsContracting := [1]
  rhsContracting := [1]
  lhsNonContracting := [0]
  rhsNonContracting := [0]
  lhsBatch := []
  rhsBatch := []
  wf := dot_S4096x1024_S256x1024_S4096x256_1_1_0_0_n_n_wf
def dot_S4096x256_S20000x256_S4096x20000_1_1_0_0_n_n : DotDims S4096x256 S20000x256 S4096x20000 where
  lhsContracting := [1]
  rhsContracting := [1]
  lhsNonContracting := [0]
  rhsNonContracting := [0]
  lhsBatch := []
  rhsBatch := []
  wf := dot_S4096x256_S20000x256_S4096x20000_1_1_0_0_n_n_wf
def dot_S4096x1024_S64x1024_S4096x64_1_1_0_0_n_n : DotDims S4096x1024 S64x1024 S4096x64 where
  lhsContracting := [1]
  rhsContracting := [1]
  lhsNonContracting := [0]
  rhsNonContracting := [0]
  lhsBatch := []
  rhsBatch := []
  wf := dot_S4096x1024_S64x1024_S4096x64_1_1_0_0_n_n_wf
def dot_S4096x64_S20000x64_S4096x20000_1_1_0_0_n_n : DotDims S4096x64 S20000x64 S4096x20000 where
  lhsContracting := [1]
  rhsContracting := [1]
  lhsNonContracting := [0]
  rhsNonContracting := [0]
  lhsBatch := []
  rhsBatch := []
  wf := dot_S4096x64_S20000x64_S4096x20000_1_1_0_0_n_n_wf

class Facts : Prop extends Facts₀ where

variable [Facts]
-- ==== Proof.KernelRun.lean ====
/-
  The kernel's program, run to its end, with every buffer named.

  @main is nine stretches of host operations followed by three kernel regions. Each stretch maps the core's buffer
  contents to the fold of its operations; each region leaves its output array at what its grid points wrote back and
  every other buffer as it found it. So after the last region every buffer that outlives the regions holds the value
  of one fold, `W12`, of the launch memory. This module states exactly that: every weakly fair execution terminates,
  nothing faults, and each such buffer ends at `W12`. What `W12` is at each result buffer is read elsewhere.
-/
import proofs.«120345_j24111946400371_1_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and every buffer that is not a staging buffer
    ends at the last fold's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

end Cert.KernelIdeal.Hand

end
-- ==== Proof.KernelHost.lean ====
/-
  The host operations that precede the regions, read at the buffers the regions fetch and at the integer results.

  The rows are the input re-laid as 4096 × 1024; the five weight matrices are the arguments; each of these is then
  rounded to a narrower float format (on the extended reals: unchanged). A row's target t lies in band 0 when
  10000 ≤ t < 30000 and in band 1 when 30000 ≤ t < 50000; each band's mask is that bit as a float, laid out as a
  4096 × 1 column. The three integer results are selections on the two band bits: the head's class
  (10000 for band 0, 10001 for band 1, else t itself) and the position inside each band (t − 10000 or t − 30000, else 0).
-/
import proofs.«120345_j24111946400371_1_alg».proof.Proof.Gen.KernelIdeal.Frame
import Idealize.ShloMosaic.Lib.StableHlo.Run

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen

variable {F : FTy → Type} [FloatOps F]

/-- The targets as one vector of 4096. -/
def tgt (x1 : (⟨S2x2048, .i32⟩ : BufTy).Contents (Elt F)) : (⟨S4096, .i32⟩ : BufTy).Contents (Elt F) :=
  shapeCast _ x1 shapeCasts_S2x2048_S4096

/-- Row by row: 10000 ≤ target < 30000. -/
def inBand0 (x1 : (⟨S2x2048, .i32⟩ : BufTy).Contents (Elt F)) : (⟨S4096, .i1⟩ : BufTy).Contents (Elt F) :=
  andi (cmpi .sge (tgt (F := F) x1) (broadcastInDim S4096 ![] bcast_S_S4096 (constantI S_ 32 10000#32)))
    (cmpi .slt (tgt (F := F) x1) (broadcastInDim S4096 ![] bcast_S_S4096 (constantI S_ 32 30000#32)))

/-- Row by row: 30000 ≤ target < 50000. -/
def inBand1 (x1 : (⟨S2x2048, .i32⟩ : BufTy).Contents (Elt F)) : (⟨S4096, .i1⟩ : BufTy).Contents (Elt F) :=
  andi (cmpi .sge (tgt (F := F) x1) (broadcastInDim S4096 ![] bcast_S_S4096 (constantI S_ 32 30000#32)))
    (cmpi .slt (tgt (F := F) x1) (broadcastInDim S4096 ![] bcast_S_S4096 (constantI S_ 32 50000#32)))

variable (m : (ℓ : Loc nD τ sig) → Buf (Elt F) ℓ) (ρ : Dev nD → PrngReg)

/-- Open the nine stretches' fold at one buffer: each operation's result at its own buffer, anything else untouched. -/
local macro "host_read" : tactic =>
  `(tactic| (simp only [hostOps0, hostOps0_1, hostOps0_2, hostOps0_3, hostOps0_4, hostOps0_5, hostOps0_6, hostOps0_7, hostOps0_8]; after_results_simp))

/-- The rows the regions fetch: the input re-laid as 4096 × 1024, then rounded. -/
theorem host_rows (c : Dev nD) : W9 m ρ c (Proc.devRef .tc main_v20)
    = truncf .bf16 (shapeCast _ (m ((c : Thread nD τ).loc main_arg0)) shapeCasts_S2x2048x1024_S4096x1024) bitsLt_bf16_f32 := by
  show StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (W0 m ρ c))))))))) (Proc.devRef .tc main_v20) = _
  host_read
  rfl

theorem host_headw (c : Dev nD) : W9 m ρ c (Proc.devRef .tc main_v21)
    = truncf .bf16 (m ((c : Thread nD τ).loc main_arg2)) bitsLt_bf16_f32 := by
  show StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (W0 m ρ c))))))))) (Proc.devRef .tc main_v21) = _
  host_read

theorem host_proj0 (c : Dev nD) : W9 m ρ c (Proc.devRef .tc main_v22)
    = truncf .bf16 (m ((c : Thread nD τ).loc main_arg3)) bitsLt_bf16_f32 := by
  show StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (W0 m ρ c))))))))) (Proc.devRef .tc main_v22) = _
  host_read

theorem host_out0 (c : Dev nD) : W9 m ρ c (Proc.devRef .tc main_v23)
    = truncf .bf16 (m ((c : Thread nD τ).loc main_arg4)) bitsLt_bf16_f32 := by
  show StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (W0 m ρ c))))))))) (Proc.devRef .tc main_v23) = _
  host_read

theorem host_proj1 (c : Dev nD) : W9 m ρ c (Proc.devRef .tc main_v24)
    = truncf .bf16 (m ((c : Thread nD τ).loc main_arg5)) bitsLt_bf16_f32 := by
  show StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (W0 m ρ c))))))))) (Proc.devRef .tc main_v24) = _
  host_read

theorem host_out1 (c : Dev nD) : W9 m ρ c (Proc.devRef .tc main_v25)
    = truncf .bf16 (m ((c : Thread nD τ).loc main_arg6)) bitsLt_bf16_f32 := by
  show StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (W0 m ρ c))))))))) (Proc.devRef .tc main_v25) = _
  host_read

/-- Band 0's mask column. -/
theorem host_mask0 (c : Dev nD) : W9 m ρ c (Proc.devRef .tc main_v27)
    = shapeCast _ (uitofp .f32 (inBand0 (F := F) (m ((c : Thread nD τ).loc main_arg1)))) shapeCasts_S4096_S4096x1 := by
  show StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (W0 m ρ c))))))))) (Proc.devRef .tc main_v27) = _
  host_read
  rfl

/-- Band 1's mask column. -/
theorem host_mask1 (c : Dev nD) : W9 m ρ c (Proc.devRef .tc main_v29)
    = shapeCast _ (uitofp .f32 (inBand1 (F := F) (m ((c : Thread nD τ).loc main_arg1)))) shapeCasts_S4096_S4096x1 := by
  show StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (W0 m ρ c))))))))) (Proc.devRef .tc main_v29) = _
  host_read
  rfl

/-- The head's class per row. -/
theorem host_class (c : Dev nD) : W9 m ρ c (Proc.devRef .tc main_v13)
    = select (inBand0 (F := F) (m ((c : Thread nD τ).loc main_arg1))) (broadcastInDim S4096 ![] bcast_S_S4096 (id (constantI S_ 32 10000#32)))
        (select (inBand1 (F := F) (m ((c : Thread nD τ).loc main_arg1))) (broadcastInDim S4096 ![] bcast_S_S4096 (id (constantI S_ 32 10001#32)))
          (tgt (F := F) (m ((c : Thread nD τ).loc main_arg1)))) := by
  show StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (W0 m ρ c))))))))) (Proc.devRef .tc main_v13) = _
  host_read
  rfl

/-- The position inside band 0 per row. -/
theorem host_pos0 (c : Dev nD) : W9 m ρ c (Proc.devRef .tc main_v16)
    = select (inBand0 (F := F) (m ((c : Thread nD τ).loc main_arg1)))
        (subi (tgt (F := F) (m ((c : Thread nD τ).loc main_arg1))) (broadcastInDim S4096 ![] bcast_S_S4096 (constantI S_ 32 10000#32)))
        (broadcastInDim S4096 ![] bcast_S_S4096 (id (constantI S_ 32 0#32))) := by
  show StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (W0 m ρ c))))))))) (Proc.devRef .tc main_v16) = _
  host_read
  rfl

/-- The position inside band 1 per row. -/
theorem host_pos1 (c : Dev nD) : W9 m ρ c (Proc.devRef .tc main_v19)
    = select (inBand1 (F := F) (m ((c : Thread nD τ).loc main_arg1)))
        (subi (tgt (F := F) (m ((c : Thread nD τ).loc main_arg1))) (broadcastInDim S4096 ![] bcast_S_S4096 (constantI S_ 32 30000#32)))
        (broadcastInDim S4096 ![] bcast_S_S4096 (id (constantI S_ 32 0#32))) := by
  show StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (W0 m ρ c))))))))) (Proc.devRef .tc main_v19) = _
  host_read
  rfl

end Cert.KernelIdeal.Hand

end
-- ==== Proof.KernelDots.lean ====
/-
  The five contractions of the kernel's bodies, each read as "axis 1 of both operands is summed":
  in every one of them an output entry (i, j) pairs row i of the left operand with row j of the right operand,
  and the contraction index runs along both rows. These are the coordinate facts that turn each product into
  the product with a transpose.
-/
import proofs.«120345_j24111946400371_1_alg».proof.Proof.Gen.KernelIdeal
import Idealize.ShloMosaic.Lib.ValueIdx

noncomputable section

namespace Cert.KernelIdeal.Dots

open Cert.KernelIdeal Cert.KernelIdeal.Gen Idealize.ShloMosaic

/-- Left operand, axis 0: the output's row. -/
theorem head_l0 (i : S128x10002.Idx) (q : dot_S128x1024_S10002x1024_S128x10002_1_1_0_0_n_n.contr.Idx) : (dot_S128x1024_S10002x1024_S128x10002_1_1_0_0_n_n.lhsIdx i q 0).val = (i 0).val := by
  unfold DotDims.lhsIdx
  rw [dif_neg (show ¬(0 : Fin S128x1024.rank) ∈ dot_S128x1024_S10002x1024_S128x10002_1_1_0_0_n_n.lhsBatch by decide), dif_pos (show (0 : Fin S128x1024.rank) ∈ dot_S128x1024_S10002x1024_S128x10002_1_1_0_0_n_n.lhsNonContracting by decide)]
  rfl
/-- Left operand, axis 1: the contraction index. -/
theorem head_l1 (i : S128x10002.Idx) (q : dot_S128x1024_S10002x1024_S128x10002_1_1_0_0_n_n.contr.Idx) : (dot_S128x1024_S10002x1024_S128x10002_1_1_0_0_n_n.lhsIdx i q 1).val = (q ⟨0, by decide⟩).val :=
  dot_S128x1024_S10002x1024_S128x10002_1_1_0_0_n_n.lhsIdx_val_of_single rfl i q
/-- Right operand, axis 0: the output's column. -/
theorem head_r0 (i : S128x10002.Idx) (q : dot_S128x1024_S10002x1024_S128x10002_1_1_0_0_n_n.contr.Idx) : (dot_S128x1024_S10002x1024_S128x10002_1_1_0_0_n_n.rhsIdx i q 0).val = (i 1).val := by
  unfold DotDims.rhsIdx
  rw [dif_neg (show ¬(0 : Fin S10002x1024.rank) ∈ dot_S128x1024_S10002x1024_S128x10002_1_1_0_0_n_n.rhsBatch by decide), dif_pos (show (0 : Fin S10002x1024.rank) ∈ dot_S128x1024_S10002x1024_S128x10002_1_1_0_0_n_n.rhsNonContracting by decide)]
  rfl
/-- Right operand, axis 1: the contraction index. -/
theorem head_r1 (i : S128x10002.Idx) (q : dot_S128x1024_S10002x1024_S128x10002_1_1_0_0_n_n.contr.Idx) : (dot_S128x1024_S10002x1024_S128x10002_1_1_0_0_n_n.rhsIdx i q 1).val = (q ⟨0, by decide⟩).val :=
  dot_S128x1024_S10002x1024_S128x10002_1_1_0_0_n_n.rhsIdx_val_of_single rfl i q

/-- Left operand, axis 0: the output's row. -/
theorem proj0_l0 (i : S64x256.Idx) (q : dot_S64x1024_S256x1024_S64x256_1_1_0_0_n_n.contr.Idx) : (dot_S64x1024_S256x1024_S64x256_1_1_0_0_n_n.lhsIdx i q 0).val = (i 0).val := by
  unfold DotDims.lhsIdx
  rw [dif_neg (show ¬(0 : Fin S64x1024.rank) ∈ dot_S64x1024_S256x1024_S64x256_1_1_0_0_n_n.lhsBatch by decide), dif_pos (show (0 : Fin S64x1024.rank) ∈ dot_S64x1024_S256x1024_S64x256_1_1_0_0_n_n.lhsNonContracting by decide)]
  rfl
/-- Left operand, axis 1: the contraction index. -/
theorem proj0_l1 (i : S64x256.Idx) (q : dot_S64x1024_S256x1024_S64x256_1_1_0_0_n_n.contr.Idx) : (dot_S64x1024_S256x1024_S64x256_1_1_0_0_n_n.lhsIdx i q 1).val = (q ⟨0, by decide⟩).val :=
  dot_S64x1024_S256x1024_S64x256_1_1_0_0_n_n.lhsIdx_val_of_single rfl i q
/-- Right operand, axis 0: the output's column. -/
theorem proj0_r0 (i : S64x256.Idx) (q : dot_S64x1024_S256x1024_S64x256_1_1_0_0_n_n.contr.Idx) : (dot_S64x1024_S256x1024_S64x256_1_1_0_0_n_n.rhsIdx i q 0).val = (i 1).val := by
  unfold DotDims.rhsIdx
  rw [dif_neg (show ¬(0 : Fin S256x1024.rank) ∈ dot_S64x1024_S256x1024_S64x256_1_1_0_0_n_n.rhsBatch by decide), dif_pos (show (0 : Fin S256x1024.rank) ∈ dot_S64x1024_S256x1024_S64x256_1_1_0_0_n_n.rhsNonContracting by decide)]
  rfl
/-- Right operand, axis 1: the contraction index. -/
theorem proj0_r1 (i : S64x256.Idx) (q : dot_S64x1024_S256x1024_S64x256_1_1_0_0_n_n.contr.Idx) : (dot_S64x1024_S256x1024_S64x256_1_1_0_0_n_n.rhsIdx i q 1).val = (q ⟨0, by decide⟩).val :=
  dot_S64x1024_S256x1024_S64x256_1_1_0_0_n_n.rhsIdx_val_of_single rfl i q

/-- Left operand, axis 0: the output's row. -/
theorem out0_l0 (i : S64x20000.Idx) (q : dot_S64x256_S20000x256_S64x20000_1_1_0_0_n_n.contr.Idx) : (dot_S64x256_S20000x256_S64x20000_1_1_0_0_n_n.lhsIdx i q 0).val = (i 0).val := by
  unfold DotDims.lhsIdx
  rw [dif_neg (show ¬(0 : Fin S64x256.rank) ∈ dot_S64x256_S20000x256_S64x20000_1_1_0_0_n_n.lhsBatch by decide), dif_pos (show (0 : Fin S64x256.rank) ∈ dot_S64x256_S20000x256_S64x20000_1_1_0_0_n_n.lhsNonContracting by decide)]
  rfl
/-- Left operand, axis 1: the contraction index. -/
theorem out0_l1 (i : S64x20000.Idx) (q : dot_S64x256_S20000x256_S64x20000_1_1_0_0_n_n.contr.Idx) : (dot_S64x256_S20000x256_S64x20000_1_1_0_0_n_n.lhsIdx i q 1).val = (q ⟨0, by decide⟩).val :=
  dot_S64x256_S20000x256_S64x20000_1_1_0_0_n_n.lhsIdx_val_of_single rfl i q
/-- Right operand, axis 0: the output's column. -/
theorem out0_r0 (i : S64x20000.Idx) (q : dot_S64x256_S20000x256_S64x20000_1_1_0_0_n_n.contr.Idx) : (dot_S64x256_S20000x256_S64x20000_1_1_0_0_n_n.rhsIdx i q 0).val = (i 1).val := by
  unfold DotDims.rhsIdx
  rw [dif_neg (show ¬(0 : Fin S20000x256.rank) ∈ dot_S64x256_S20000x256_S64x20000_1_1_0_0_n_n.rhsBatch by decide), dif_pos (show (0 : Fin S20000x256.rank) ∈ dot_S64x256_S20000x256_S64x20000_1_1_0_0_n_n.rhsNonContracting by decide)]
  rfl
/-- Right operand, axis 1: the contraction index. -/
theorem out0_r1 (i : S64x20000.Idx) (q : dot_S64x256_S20000x256_S64x20000_1_1_0_0_n_n.contr.Idx) : (dot_S64x256_S20000x256_S64x20000_1_1_0_0_n_n.rhsIdx i q 1).val = (q ⟨0, by decide⟩).val :=
  dot_S64x256_S20000x256_S64x20000_1_1_0_0_n_n.rhsIdx_val_of_single rfl i q

/-- Left operand, axis 0: the output's row. -/
theorem proj1_l0 (i : S64x64.Idx) (q : dot_S64x1024_S64x1024_S64x64_1_1_0_0_n_n.contr.Idx) : (dot_S64x1024_S64x1024_S64x64_1_1_0_0_n_n.lhsIdx i q 0).val = (i 0).val := by
  unfold DotDims.lhsIdx
  rw [dif_neg (show ¬(0 : Fin S64x1024.rank) ∈ dot_S64x1024_S64x1024_S64x64_1_1_0_0_n_n.lhsBatch by decide), dif_pos (show (0 : Fin S64x1024.rank) ∈ dot_S64x1024_S64x1024_S64x64_1_1_0_0_n_n.lhsNonContracting by decide)]
  rfl
/-- Left operand, axis 1: the contraction index. -/
theorem proj1_l1 (i : S64x64.Idx) (q : dot_S64x1024_S64x1024_S64x64_1_1_0_0_n_n.contr.Idx) : (dot_S64x1024_S64x1024_S64x64_1_1_0_0_n_n.lhsIdx i q 1).val = (q ⟨0, by decide⟩).val :=
  dot_S64x1024_S64x1024_S64x64_1_1_0_0_n_n.lhsIdx_val_of_single rfl i q
/-- Right operand, axis 0: the output's column. -/
theorem proj1_r0 (i : S64x64.Idx) (q : dot_S64x1024_S64x1024_S64x64_1_1_0_0_n_n.contr.Idx) : (dot_S64x1024_S64x1024_S64x64_1_1_0_0_n_n.rhsIdx i q 0).val = (i 1).val := by
  unfold DotDims.rhsIdx
  rw [dif_neg (show ¬(0 : Fin S64x1024.rank) ∈ dot_S64x1024_S64x1024_S64x64_1_1_0_0_n_n.rhsBatch by decide), dif_pos (show (0 : Fin S64x1024.rank) ∈ dot_S64x1024_S64x1024_S64x64_1_1_0_0_n_n.rhsNonContracting by decide)]
  rfl
/-- Right operand, axis 1: the contraction index. -/
theorem proj1_r1 (i : S64x64.Idx) (q : dot_S64x1024_S64x1024_S64x64_1_1_0_0_n_n.contr.Idx) : (dot_S64x1024_S64x1024_S64x64_1_1_0_0_n_n.rhsIdx i q 1).val = (q ⟨0, by decide⟩).val :=
  dot_S64x1024_S64x1024_S64x64_1_1_0_0_n_n.rhsIdx_val_of_single rfl i q

/-- Left operand, axis 0: the output's row. -/
theorem out1_l0 (i : S64x20000.Idx) (q : dot_S64x64_S20000x64_S64x20000_1_1_0_0_n_n.contr.Idx) : (dot_S64x64_S20000x64_S64x20000_1_1_0_0_n_n.lhsIdx i q 0).val = (i 0).val := by
  unfold DotDims.lhsIdx
  rw [dif_neg (show ¬(0 : Fin S64x64.rank) ∈ dot_S64x64_S20000x64_S64x20000_1_1_0_0_n_n.lhsBatch by decide), dif_pos (show (0 : Fin S64x64.rank) ∈ dot_S64x64_S20000x64_S64x20000_1_1_0_0_n_n.lhsNonContracting by decide)]
  rfl
/-- Left operand, axis 1: the contraction index. -/
theorem out1_l1 (i : S64x20000.Idx) (q : dot_S64x64_S20000x64_S64x20000_1_1_0_0_n_n.contr.Idx) : (dot_S64x64_S20000x64_S64x20000_1_1_0_0_n_n.lhsIdx i q 1).val = (q ⟨0, by decide⟩).val :=
  dot_S64x64_S20000x64_S64x20000_1_1_0_0_n_n.lhsIdx_val_of_single rfl i q
/-- Right operand, axis 0: the output's column. -/
theorem out1_r0 (i : S64x20000.Idx) (q : dot_S64x64_S20000x64_S64x20000_1_1_0_0_n_n.contr.Idx) : (dot_S64x64_S20000x64_S64x20000_1_1_0_0_n_n.rhsIdx i q 0).val = (i 1).val := by
  unfold DotDims.rhsIdx
  rw [dif_neg (show ¬(0 : Fin S20000x64.rank) ∈ dot_S64x64_S20000x64_S64x20000_1_1_0_0_n_n.rhsBatch by decide), dif_pos (show (0 : Fin S20000x64.rank) ∈ dot_S64x64_S20000x64_S64x20000_1_1_0_0_n_n.rhsNonContracting by decide)]
  rfl
/-- Right operand, axis 1: the contraction index. -/
theorem out1_r1 (i : S64x20000.Idx) (q : dot_S64x64_S20000x64_S64x20000_1_1_0_0_n_n.contr.Idx) : (dot_S64x64_S20000x64_S64x20000_1_1_0_0_n_n.rhsIdx i q 1).val = (q ⟨0, by decide⟩).val :=
  dot_S64x64_S20000x64_S64x20000_1_1_0_0_n_n.rhsIdx_val_of_single rfl i q

end Cert.KernelIdeal.Dots

end
-- ==== Proof.LibDense.lean ====
/-
  The pieces of a dense layer, read one entry at a time, on the extended reals.

  * `mmT x w` is the product of `x : [M, K]` with the TRANSPOSE of `w : [N, K]`: entry (i, j) is the sum over k of
    x (i, k) · w (j, k). A contraction whose dimension numbers contract the second axis of both operands denotes
    exactly this sum (`sum_contr_eq_mmT`).
  * `biasRelu a b` adds the row `b : [1, K]` to every row of `a : [M, K]` and takes the maximum with a threshold `z`;
    `addRow a b` only adds the row.
-/
import Idealize.ShloMosaic.PureOps.Ideal.Laws
import Idealize.ShloMosaic.Lib.ValueIdx

noncomputable section

namespace Cert.LibDense

open Idealize.ShloMosaic Idealize.ShloMosaic.ValueIdx

/-- `x · wᵀ`: entry (i, j) is the sum over k of x (i, k) · w (j, k). -/
def mmT {M K N : Nat} (x : (⟨2, ![M, K]⟩ : Shape).Idx → EReal) (w : (⟨2, ![N, K]⟩ : Shape).Idx → EReal) :
    (⟨2, ![M, N]⟩ : Shape).Idx → EReal :=
  fun i => ∑ k : Fin K, x (ix2 (i 0) k) * w (ix2 (i 1) k)

/-- Row `b` added to every row of `a`, then the maximum with `z` entry by entry. -/
def biasRelu {M K : Nat} (z : EReal) (a : (⟨2, ![M, K]⟩ : Shape).Idx → EReal) (b : (⟨2, ![1, K]⟩ : Shape).Idx → EReal) :
    (⟨2, ![M, K]⟩ : Shape).Idx → EReal :=
  fun i => max (a i + b (ix2 (0 : Fin 1) (i 1))) z

/-- Row `b` added to every row of `a`. -/
def addRow {M K : Nat} (a : (⟨2, ![M, K]⟩ : Shape).Idx → EReal) (b : (⟨2, ![1, K]⟩ : Shape).Idx → EReal) :
    (⟨2, ![M, K]⟩ : Shape).Idx → EReal :=
  fun i => a i + b (ix2 (0 : Fin 1) (i 1))

/-- The sum over the index of a contraction of BOTH operands' second axes is `mmT`: the left operand is read along
    row `i 0`, the right operand along row `i 1`. The four hypotheses say which coordinate of the output index or of
    the contraction index each operand coordinate is. -/
theorem sum_contr_eq_mmT {M K N : Nat} (D : DotDims ⟨2, ![M, K]⟩ ⟨2, ![N, K]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (i 1).val)
    (hr1 : ∀ (i : (⟨2, ![M, N]⟩ : Shape).Idx) (q : D.contr.Idx), (D.rhsIdx i q 1).val = (q ⟨0, by omega⟩).val)
    (l : (⟨2, ![M, K]⟩ : Shape).Idx → EReal) (r : (⟨2, ![N, K]⟩ : Shape).Idx → EReal) (i : (⟨2, ![M, N]⟩ : Shape).Idx) :
    ∑ q : D.contr.Idx, l (D.lhsIdx i q) * r (D.rhsIdx i q) = mmT l r i := by
  unfold mmT
  rw [← Equiv.sum_comp (contrEquiv1 D K hr hs).symm]
  refine Finset.sum_congr rfl fun k _ => ?_
  have hk := contrEquiv1_symm_val D K hr hs k
  have el : D.lhsIdx i ((contrEquiv1 D K hr hs).symm k) = ix2 (i 0) k := funext fun a => Fin.ext (by
    match a with
    | ⟨0, _⟩ => exact hl0 _ _
    | ⟨1, _⟩ => exact (hl1 _ _).trans hk)
  have er : D.rhsIdx i ((contrEquiv1 D K hr hs).symm k) = ix2 (i 1) k := funext fun a => Fin.ext (by
    match a with
    | ⟨0, _⟩ => exact hr0 _ _
    | ⟨1, _⟩ => exact (hr1 _ _).trans hk)
  rw [el, er]
  rfl

end Cert.LibDense

end
-- ==== Proof.LibContract.lean ====
/-
  A contraction of the second axis of both operands, on the extended reals, as the product with a transpose.

  Both the host's `dot_general` and a `tpu.matmul` into a zero accumulator denote, entry by entry, the plain sum over
  the contraction index of the operands' products. When the dimension numbers contract axis 1 of both operands that
  sum is `mmT l r`: entry (i, j) is the sum over k of l (i, k) · r (j, k). A change of float format is the identity
  on the extended reals, entrywise.
-/
import proofs.«120345_j24111946400371_1_alg».proof.Proof.LibDense
import Idealize.ShloMosaic.PureOps.Ideal.Laws
import Idealize.ShloMosaic.Lib.ValueIdx

noncomputable section

namespace Cert.LibContract

open Idealize.ShloMosaic Idealize.ShloMosaic.ValueIdx Cert.LibDense

/-- The host's contraction of both operands' second axes is `l · rᵀ`. -/
theorem dotGeneral_eq_mmT {M K N : Nat} {φ₁ φ₂ : FTy} (D : DotDims ⟨2, ![M, K]⟩ ⟨2, ![N, K]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (i 1).val)
    (hr1 : ∀ (i : (⟨2, ![M, N]⟩ : Shape).Idx) (q : D.contr.Idx), (D.rhsIdx i q 1).val = (q ⟨0, by omega⟩).val)
    (l : FVec Ideal ⟨2, ![M, K]⟩ φ₁) (r : FVec Ideal ⟨2, ![N, K]⟩ φ₂) :
    Host.dotGeneral (F := Ideal) D none l r = mmT l r := by
  funext i
  simp only [Host.dotGeneral]
  rw [Ideal.dotGeneral_apply]
  exact sum_contr_eq_mmT D hr hs hl0 hl1 hr0 hr1 l r i

/-- A matrix unit's product into a zero accumulator, contracting both operands' second axes, is `l · rᵀ`. -/
theorem matmul_zero_eq_mmT {M K N : Nat} {φ₁ φ₂ : FTy} (D : DotDims ⟨2, ![M, K]⟩ ⟨2, ![N, K]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (i 1).val)
    (hr1 : ∀ (i : (⟨2, ![M, N]⟩ : Shape).Idx) (q : D.contr.Idx), (D.rhsIdx i q 1).val = (q ⟨0, by omega⟩).val)
    (l : FVec Ideal ⟨2, ![M, K]⟩ φ₁) (r : FVec Ideal ⟨2, ![N, K]⟩ φ₂) :
    matmul (F := Ideal) D none l r (constant ⟨2, ![M, N]⟩ .f32 0x00000000#32) = mmT l r := by
  funext i
  simp only [matmul]
  rw [Ideal.matmul_constant_zero_apply]
  exact sum_contr_eq_mmT D hr hs hl0 hl1 hr0 hr1 l r i

/-- Rounding to a narrower float format changes nothing on the extended reals. -/
theorem truncf_eq {S : Shape} {φ ψ : FTy} (h : ψ.bits < φ.bits) (x : FVec Ideal S φ) :
    (truncf (F := Ideal) ψ x h : S.Idx → EReal) = x := rfl

end Cert.LibContract

end
-- ==== Proof.Head.lean ====
/-
  The head region: 32 grid points, point t computing rows 128·t … 128·t + 127 of the logits.

  At point t the body loads block t of the rows (128 × 1024) and the whole head matrix (10002 × 1024), multiplies the
  first against the transpose of the second into a zero accumulator, and stores the 128 × 10002 product as block t of
  the output. Entry (p, q) of that product is the sum over d of row 128·t + p of the rows times row q of the matrix:
  exactly entry (128·t + p, q) of `mmT` of the two whole arrays. The blocks tile the output, so after the region the
  output array is `mmT` of the two arrays as the region found them.
-/
import proofs.«120345_j24111946400371_1_alg».proof.Proof.Gen.KernelIdeal.Frame
import proofs.«120345_j24111946400371_1_alg».proof.Proof.KernelDots
import proofs.«120345_j24111946400371_1_alg».proof.Proof.LibContract
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.LibDense Cert.LibContract

variable (V : (c : Dev nD) → (b : Ref sig .tc) → Buf (Elt Ideal) ((c : Thread nD τ).loc b))

theorem hz2 : (![0, 0] : Fin 2 → Nat) = fun _ => 0 := funext fun a => by fin_cases a <;> rfl

/-- The body's stored value is the product of the row block with the transpose of the matrix. -/
theorem head_pay (x0 : Vec Ideal S128x1024 .bf16) (x1 : Vec Ideal S10002x1024 .bf16) :
    k0_pay1 x0 x1 = mmT x0 x1 := by
  unfold k0_pay1
  simp only [shapeCast_self]
  exact matmul_zero_eq_mmT _ rfl rfl Dots.head_l0 Dots.head_l1 Dots.head_r0 Dots.head_r1 x0 x1

/-- The printed index maps over the grid: the row block and the output block move together along axis 0, every other
    block index is zero. -/
theorem head_idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of the row block at point t is entry (128·t + p, k) of the rows' array. -/
theorem head_x_read (c : Dev nD) (t : Fin cfg0.N) (p : Fin 128) (k : Fin 1024) (i : S4096x1024.Idx)
    (h0 : (i 0).val = t.val * 128 + p.val) (h1 : (i 1).val = k.val) :
    (iblk0 V c 0 t : S128x1024.Idx → EReal) (ix2 p k) = (V c main_v20 : S4096x1024.Idx → EReal) i := by
  obtain ⟨e0, e1, -, -, -, -⟩ := head_idx t
  unfold iblk0
  rw [View.read_apply]
  show V c main_v20 _ = V c main_v20 i
  refine congrArg _ (funext fun a => Fin.ext ?_)
  match a with
  | ⟨0, _⟩ => show win0_0.index t (0 : Fin 2) * 128 + 1 * p.val = (i 0).val; omega
  | ⟨1, _⟩ => show win0_0.index t (1 : Fin 2) * 1024 + 1 * k.val = (i 1).val; omega

/-- The matrix's block at any point is the whole matrix. -/
theorem head_w_read (c : Dev nD) (t : Fin cfg0.N) (q : Fin 10002) (k : Fin 1024) :
    (iblk0 V c 1 t : S10002x1024.Idx → EReal) (ix2 q k) = (V c main_v21 : S10002x1024.Idx → EReal) (ix2 q k) := by
  obtain ⟨-, -, e2, e3, -, -⟩ := head_idx t
  unfold iblk0
  rw [View.read_apply]
  show V c main_v21 _ = V c main_v21 _
  refine congrArg _ (funext fun a => Fin.ext ?_)
  match a with
  | ⟨0, _⟩ => show win0_1.index t (0 : Fin 2) * 10002 + 1 * q.val = q.val; omega
  | ⟨1, _⟩ => show win0_1.index t (1 : Fin 2) * 1024 + 1 * k.val = k.val; omega

/-- What point t writes back is block t of the product of the two whole arrays. -/
theorem head_flushed (c : Dev nD) (t : Fin cfg0.N) :
    (dat0 V c).flushed 2 t = ((cfg0.win 2).blk t).view.read (Elt Ideal)
      (mmT (V c main_v20 : S4096x1024.Idx → EReal) (V c main_v21 : S10002x1024.Idx → EReal)) := by
  show (cfg0.win 2).cut (grid0.coords t) ((dat0 V c).after 2 t) = _
  rw [after0_2]
  unfold out0_2
  rw [View.canon_unit_zero hz2]
  simp only [View.ld_unit_zero (S := S128x1024) hz2, View.ld_unit_zero (S := S10002x1024) hz2]
  rw [head_pay]
  obtain ⟨-, -, -, -, e4, e5⟩ := head_idx t
  funext y
  obtain ⟨p, q, rfl⟩ : ∃ (p : Fin 128) (q : Fin 10002), y = ix2 p q := ⟨y 0, y 1, eq_ix2 y⟩
  have hE0 : ((((cfg0.win 2).blk t).view.emb (ix2 p q)) 0).val = win0_2.index t (0 : Fin 2) * 128 + 1 * p.val := rfl
  have hE1 : ((((cfg0.win 2).blk t).view.emb (ix2 p q)) 1).val = win0_2.index t (1 : Fin 2) * 10002 + 1 * q.val := rfl
  show mmT (iblk0 V c 0 t : S128x1024.Idx → EReal) (iblk0 V c 1 t : S10002x1024.Idx → EReal) (ix2 p q)
    = mmT (V c main_v20 : S4096x1024.Idx → EReal) (V c main_v21 : S10002x1024.Idx → EReal) (((cfg0.win 2).blk t).view.emb (ix2 p q))
  unfold mmT
  refine Finset.sum_congr rfl fun k _ => ?_
  have hx := head_x_read V c t p k (ix2 ((((cfg0.win 2).blk t).view.emb (ix2 p q)) 0) k)
    (by show ((((cfg0.win 2).blk t).view.emb (ix2 p q)) 0).val = _; rw [hE0, e4]; omega) rfl
  have hw := head_w_read V c t q k
  have hq : (ix2 ((((cfg0.win 2).blk t).view.emb (ix2 p q)) 1) k : S10002x1024.Idx) = ix2 q k :=
    funext fun a => Fin.ext (by
      match a with
      | ⟨0, _⟩ => show ((((cfg0.win 2).blk t).view.emb (ix2 p q)) 1).val = q.val; rw [hE1, e5]; omega
      | ⟨1, _⟩ => rfl)
  exact congrArg₂ (fun a b : EReal => a * b) hx (hw.trans (congrArg _ hq.symm))

/-- An index of the output lies in point t's block iff each coordinate lies in the block's range on its axis. -/
theorem head_mem (t : Fin cfg0.N) (i : S4096x10002.Idx) :
    i ∈ ((cfg0.win 2).blk t).view.set ↔ ∀ a : Fin 2, win0_2.index t a * S128x10002.size a ≤ (i a).val
      ∧ (i a).val < win0_2.index t a * S128x10002.size a + S128x10002.size a := by
  show i ∈ ((View.whole main_v30).slice (win0_2.rect t)).set ↔ _
  rw [View.set_slice_whole, Rect.mem_set_unit]
  exact Iff.rfl

/-- After the region the output array is the product of the rows with the transpose of the matrix: row n lies in the
    block of point n / 128. -/
theorem head_final (c : Dev nD) :
    (dat0 V c).arrAt 2 cfg0.N = mmT (V c main_v20 : S4096x1024.Idx → EReal) (V c main_v21 : S10002x1024.Idx → EReal) :=
  (dat0 V c).arrAt_eq_of_cover 2 _ (fun t _ => head_flushed V c t) fun i => by
    have hi0 : (i 0).val < 4096 := (i 0).isLt
    have hi1 : (i 1).val < 10002 := (i 1).isLt
    have hN : cfg0.N = 32 := N_0
    obtain ⟨-, -, -, -, e4, e5⟩ := head_idx ⟨(i 0).val / 128, by rw [hN]; omega⟩
    refine ⟨⟨(i 0).val / 128, by rw [hN]; omega⟩, flush0_2 _, ?_⟩
    rw [head_mem]
    intro a
    match a with
    | ⟨0, _⟩ =>
      show win0_2.index ⟨(i 0).val / 128, _⟩ (0 : Fin 2) * 128 ≤ (i 0).val ∧ (i 0).val < win0_2.index ⟨(i 0).val / 128, _⟩ (0 : Fin 2) * 128 + 128
      rw [e4]; show (i 0).val / 128 * 128 ≤ (i 0).val ∧ (i 0).val < (i 0).val / 128 * 128 + 128; omega
    | ⟨1, _⟩ =>
      show win0_2.index ⟨(i 0).val / 128, _⟩ (1 : Fin 2) * 10002 ≤ (i 1).val ∧ (i 1).val < win0_2.index ⟨(i 0).val / 128, _⟩ (1 : Fin 2) * 10002 + 10002
      rw [e5]; omega

end Cert.KernelIdeal.Hand

end
-- ==== Proof.LibColumns.lean ====
/-
  Column vectors among matrices, read at explicit coordinates.

  A sum or a maximum taken along the rows of a matrix with the reduced axis kept comes back as an `a × 1` column:
  the length-`a` result reshaped to a column, and later spread across the columns of a matrix again. Read at an
  index: the reshaped column's entry `(i, u)` is the vector's entry `i`; the column spread to `a × b` has, at
  `(p, c)`, the column's entry `(p, 0)`. Also here: the sum over the one index of a single-axis contraction, with
  the two operands' indices along the contracted axis named by the caller.
-/
import Idealize.ShloMosaic.Lib.ValueIdx
import Idealize.ShloMosaic.Lib.Pipeline.Value
import Idealize.ShloMosaic.PureOps.Ideal.Laws

namespace Cert.LibColumns

open Idealize.ShloMosaic Idealize.ShloMosaic.ValueIdx

variable {α : Type}

/-- A length-`a` vector reshaped to an `a × 1` column: entry `(i, u)` is the vector's entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column spread across `b` columns: entry `(p, c)` is the column's entry `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over a one-axis contraction's index, re-indexed by the contracted coordinate `k`: the caller names the
    two operands' indices at each `k`. -/
theorem sum_contr1 {sl sr so : Shape} (D : DotDims sl sr so) (K : ℕ) (hr : D.contr.rank = 1)
    (hs : D.contr.size ⟨0, by omega⟩ = K) (l : sl.Idx → EReal) (r : sr.Idx → EReal) (j : so.Idx)
    (L : Fin K → sl.Idx) (R : Fin K → sr.Idx)
    (hl : ∀ k : Fin K, D.lhsIdx j ((contrEquiv1 D K hr hs).symm k) = L k)
    (hr' : ∀ k : Fin K, D.rhsIdx j ((contrEquiv1 D K hr hs).symm k) = R k) :
    ∑ q : D.contr.Idx, l (D.lhsIdx j q) * r (D.rhsIdx j q) = ∑ k : Fin K, l (L k) * r (R k) := by
  rw [← Equiv.sum_comp (contrEquiv1 D K hr hs).symm]
  exact Finset.sum_congr rfl fun k _ => by rw [hl k, hr' k]

end Cert.LibColumns
-- ==== Proof.Spec.lean ====
/-
  What the three float results are, entry by entry, on the extended reals.

  The head's logits are the rows times the transpose of the head matrix, `mmT x w`. A band's logits project the rows
  to `K` features (`mmT x p`), multiply those against the band's output matrix, and scale row `n` by the row's mask
  entry `μ n` (one for a row whose target falls in the band, zero otherwise):
  entry (n, v) is (∑ₖ (∑_d x(n,d)·p(k,d)) · o(v,k)) · μ(n).
-/
import proofs.«120345_j24111946400371_1_alg».proof.Proof.LibDense
import proofs.«120345_j24111946400371_1_alg».proof.Proof.LibColumns

noncomputable section

namespace Cert.Spec

open Idealize.ShloMosaic Idealize.ShloMosaic.ValueIdx Cert.LibDense

/-- A band's masked logits. -/
def band {M D K N : Nat} (x : (⟨2, ![M, D]⟩ : Shape).Idx → EReal) (p : (⟨2, ![K, D]⟩ : Shape).Idx → EReal)
    (o : (⟨2, ![N, K]⟩ : Shape).Idx → EReal) (μ : (⟨1, ![M]⟩ : Shape).Idx → EReal) :
    (⟨2, ![M, N]⟩ : Shape).Idx → EReal :=
  fun i => mmT (mmT x p) o i * μ (ix1 (i 0))

/-- The same with the mask given as an `M × 1` column. -/
def bandCol {M D K N : Nat} (x : (⟨2, ![M, D]⟩ : Shape).Idx → EReal) (p : (⟨2, ![K, D]⟩ : Shape).Idx → EReal)
    (o : (⟨2, ![N, K]⟩ : Shape).Idx → EReal) (col : (⟨2, ![M, 1]⟩ : Shape).Idx → EReal) :
    (⟨2, ![M, N]⟩ : Shape).Idx → EReal :=
  fun i => mmT (mmT x p) o i * col (ix2 (i 0) (0 : Fin 1))

/-- A mask column that is a vector re-laid as `M × 1` scales row n by the vector's entry n. -/
theorem bandCol_shapeCast {M D K N : Nat} (x : (⟨2, ![M, D]⟩ : Shape).Idx → EReal) (p : (⟨2, ![K, D]⟩ : Shape).Idx → EReal)
    (o : (⟨2, ![N, K]⟩ : Shape).Idx → EReal) (μ : (⟨1, ![M]⟩ : Shape).Idx → EReal)
    (h : (⟨1, ![M]⟩ : Shape).ShapeCasts ⟨2, ![M, 1]⟩) :
    bandCol x p o (shapeCast ⟨2, ![M, 1]⟩ μ h) = band x p o μ := by
  funext i
  exact congrArg (fun z : EReal => mmT (mmT x p) o i * z) (Cert.LibColumns.shapeCast_a_a1_apply μ h (i 0) (0 : Fin 1))

end Cert.Spec

end
-- ==== Proof.Band0.lean ====
/-
  Band 0's region: 64 grid points, point t computing rows 64·t … 64·t + 63 of the band's masked logits.

  At point t the body loads block t of the rows (64 × 1024), the whole projection matrix (256 × 1024), the whole
  output matrix (20000 × 256) and block t of the mask column (64 × 1). It projects the rows (product with the
  transpose of the projection matrix into a zero accumulator), rounds the 64 × 256 result to a narrower format
  (unchanged on the extended reals), multiplies it against the transpose of the output matrix, and scales row p of
  the 64 × 20000 product by the mask's entry p. Entry (p, q) of what it stores is therefore entry (64·t + p, q) of
  the band's masked logits of the four whole arrays. The blocks tile the output.
-/
import proofs.«120345_j24111946400371_1_alg».proof.Proof.Gen.KernelIdeal.Frame
import proofs.«120345_j24111946400371_1_alg».proof.Proof.KernelDots
import proofs.«120345_j24111946400371_1_alg».proof.Proof.LibContract
import proofs.«120345_j24111946400371_1_alg».proof.Proof.LibColumns
import proofs.«120345_j24111946400371_1_alg».proof.Proof.Spec
import Idealize.ShloMosaic.Lib.Pipeline.Value

set_option maxRecDepth 16384

noncomputable section

namespace Cert.KernelIdeal.Hand.Band0

open Idealize.ShloMosaic Idealize.ShloMosaic.TcCoe Idealize.ShloMosaic.ValueIdx Idealize.SL.Sem
open Idealize.ShloMosaic.Pipeline (Dat)
open Cert.KernelIdeal Cert.KernelIdeal.Gen Cert.LibDense Cert.LibContract Cert.Spec

variable (V : (c : Dev nD) → (b : Ref sig .tc) → Buf (Elt Ideal) ((c : Thread nD τ).loc b))

theorem hz2 : (![0, 0] : Fin 2 → Nat) = fun _ => 0 := funext fun a => by fin_cases a <;> rfl

/-- The body's stored value: the row block projected, multiplied against the output matrix, each row scaled by its
    mask entry. -/
theorem pay (x0 : Vec Ideal S64x1024 .bf16) (x1 : Vec Ideal S256x1024 .bf16) (x2 : Vec Ideal S20000x256 .bf16)
    (x3 : Vec Ideal S64x1 .f32) : k1_pay1 x0 x1 x2 x3 = bandCol x0 x1 x2 x3 := by
  unfold k1_pay1
  simp only [shapeCast_self]
  rw [matmul_zero_eq_mmT _ rfl rfl Dots.proj0_l0 Dots.proj0_l1 Dots.proj0_r0 Dots.proj0_r1 x0 x1]
  rw [truncf_eq]
  rw [matmul_zero_eq_mmT _ rfl rfl Dots.out0_l0 Dots.out0_l1 Dots.out0_r0 Dots.out0_r1 (mmT x0 x1) x2]
  funext i
  obtain ⟨p, q, rfl⟩ : ∃ (p : Fin 64) (q : Fin 20000), i = ix2 p q := ⟨i 0, i 1, eq_ix2 i⟩
  show mmT (mmT x0 x1) x2 (ix2 p q) * broadcastTo S64x20000 x3 broadcasts_S64x1_S64x20000 (ix2 p q) = _
  rw [Cert.LibColumns.broadcastTo_a1_ab_apply]
  rfl

/-- The printed index maps over the grid: the row block, the mask block and the output block move together along
    axis 0; every other block index is zero. -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- Entry (p, d) of the row block at point t is entry (64·t + p, d) of the rows' array. -/
theorem x_read (c : Dev nD) (t : Fin cfg1.N) (p : Fin 64) (d : Fin 1024) (i : S4096x1024.Idx)
    (h0 : (i 0).val = t.val * 64 + p.val) (h1 : (i 1).val = d.val) :
    (iblk1 V c 0 t : S64x1024.Idx → EReal) (ix2 p d) = (V c main_v20 : S4096x1024.Idx → EReal) i := by
  obtain ⟨e0, e1, -⟩ := idx t
  unfold iblk1
  rw [View.read_apply]
  show V c main_v20 _ = V c main_v20 i
  refine congrArg _ (funext fun a => Fin.ext ?_)
  match a with
  | ⟨0, _⟩ => show win1_0.index t (0 : Fin 2) * 64 + 1 * p.val = (i 0).val; omega
  | ⟨1, _⟩ => show win1_0.index t (1 : Fin 2) * 1024 + 1 * d.val = (i 1).val; omega

/-- The projection matrix's block at any point is the whole matrix. -/
theorem p_read (c : Dev nD) (t : Fin cfg1.N) (k : Fin 256) (d : Fin 1024) :
    (iblk1 V c 1 t : S256x1024.Idx → EReal) (ix2 k d) = (V c main_v22 : S256x1024.Idx → EReal) (ix2 k d) := by
  obtain ⟨-, -, e2, e3, -⟩ := idx t
  unfold iblk1
  rw [View.read_apply]
  show V c main_v22 _ = V c main_v22 _
  refine congrArg _ (funext fun a => Fin.ext ?_)
  match a with
  | ⟨0, _⟩ => show win1_1.index t (0 : Fin 2) * 256 + 1 * k.val = k.val; omega
  | ⟨1, _⟩ => show win1_1.index t (1 : Fin 2) * 1024 + 1 * d.val = d.val; omega

/-- The output matrix's block at any point is the whole matrix. -/
theorem o_read (c : Dev nD) (t : Fin cfg1.N) (q : Fin 20000) (k : Fin 256) :
    (iblk1 V c 2 t : S20000x256.Idx → EReal) (ix2 q k) = (V c main_v23 : S20000x256.Idx → EReal) (ix2 q k) := by
  obtain ⟨-, -, -, -, e4, e5, -⟩ := idx t
  unfold iblk1
  rw [View.read_apply]
  show V c main_v23 _ = V c main_v23 _
  refine congrArg _ (funext fun a => Fin.ext ?_)
  match a with
  | ⟨0, _⟩ => show win1_2.index t (0 : Fin 2) * 20000 + 1 * q.val = q.val; omega
  | ⟨1, _⟩ => show win1_2.index t (1 : Fin 2) * 256 + 1 * k.val = k.val; omega

/-- Entry (p, 0) of the mask block at point t is entry (64·t + p, 0) of the mask column. -/
theorem m_read (c : Dev nD) (t : Fin cfg1.N) (p : Fin 64) (i : S4096x1.Idx)
    (h0 : (i 0).val = t.val * 64 + p.val) :
    (iblk1 V c 3 t : S64x1.Idx → EReal) (ix2 p (0 : Fin 1)) = (V c main_v27 : S4096x1.Idx → EReal) i := by
  obtain ⟨-, -, -, -, -, -, e6, e7, -⟩ := idx t
  unfold iblk1
  rw [View.read_apply]
  show V c main_v27 _ = V c main_v27 i
  refine congrArg _ (funext fun a => Fin.ext ?_)
  match a with
  | ⟨0, _⟩ => show win1_3.index t (0 : Fin 2) * 64 + 1 * p.val = (i 0).val; omega
  | ⟨1, _⟩ => show win1_3.index t (1 : Fin 2) * 1 + 1 * (0 : Fin 1).val = (i 1).val; have hi : (i 1).val < 1 := (i 1).isLt; omega

/-- What point t writes back is block t of the band's masked logits of the four whole arrays. -/
theorem flushed (c : Dev nD) (t : Fin cfg1.N) :
    (dat1 V c).flushed 4 t = ((cfg1.win 4).blk t).view.read (Elt Ideal)
      (bandCol (V c main_v20 : S4096x1024.Idx → EReal) (V c main_v22 : S256x1024.Idx → EReal)
        (V c main_v23 : S20000x256.Idx → EReal) (V c main_v27 : S4096x1.Idx → EReal)) := by
  show (cfg1.win 4).cut (grid1.coords t) ((dat1 V c).after 4 t) = _
  rw [after1_4]
  unfold out1_4
  rw [View.canon_unit_zero hz2]
  simp only [View.ld_unit_zero (S := S64x1024) hz2, View.ld_unit_zero (S := S256x1024) hz2,
    View.ld_unit_zero (S := S20000x256) hz2, View.ld_unit_zero (S := S64x1) hz2]
  rw [pay]
  obtain ⟨-, -, -, -, -, -, -, -, e8, e9⟩ := idx t
  funext y
  obtain ⟨p, q, rfl⟩ : ∃ (p : Fin 64) (q : Fin 20000), y = ix2 p q := ⟨y 0, y 1, eq_ix2 y⟩
  have hE0 : ((((cfg1.win 4).blk t).view.emb (ix2 p q)) 0).val = win1_4.index t (0 : Fin 2) * 64 + 1 * p.val := rfl
  have hE1 : ((((cfg1.win 4).blk t).view.emb (ix2 p q)) 1).val = win1_4.index t (1 : Fin 2) * 20000 + 1 * q.val := rfl
  show bandCol (iblk1 V c 0 t : S64x1024.Idx → EReal) (iblk1 V c 1 t : S256x1024.Idx → EReal)
      (iblk1 V c 2 t : S20000x256.Idx → EReal) (iblk1 V c 3 t : S64x1.Idx → EReal) (ix2 p q)
    = bandCol (V c main_v20 : S4096x1024.Idx → EReal) (V c main_v22 : S256x1024.Idx → EReal)
        (V c main_v23 : S20000x256.Idx → EReal) (V c main_v27 : S4096x1.Idx → EReal) (((cfg1.win 4).blk t).view.emb (ix2 p q))
  have hrow : ((((cfg1.win 4).blk t).view.emb (ix2 p q)) 0).val = t.val * 64 + p.val := by rw [hE0, e8]; omega
  have hq : ∀ k : Fin 256, (ix2 ((((cfg1.win 4).blk t).view.emb (ix2 p q)) 1) k : S20000x256.Idx) = ix2 q k :=
    fun k => funext fun a => Fin.ext (by
      match a with
      | ⟨0, _⟩ => show ((((cfg1.win 4).blk t).view.emb (ix2 p q)) 1).val = q.val; rw [hE1, e9]; omega
      | ⟨1, _⟩ => rfl)
  unfold bandCol mmT
  refine congrArg₂ (fun a b : EReal => a * b) (Finset.sum_congr rfl fun k _ => ?_)
    (m_read V c t p (ix2 ((((cfg1.win 4).blk t).view.emb (ix2 p q)) 0) (0 : Fin 1)) hrow)
  refine congrArg₂ (fun a b : EReal => a * b) (Finset.sum_congr rfl fun d _ => ?_)
    ((o_read V c t q k).trans (congrArg _ (hq k).symm))
  exact congrArg₂ (fun a b : EReal => a * b)
    (x_read V c t p d (ix2 ((((cfg1.win 4).blk t).view.emb (ix2 p q)) 0) d) hrow rfl) (p_read V c t k d)

/-- An index of the output lies in point t's block iff each coordinate lies in the block's range on its axis. -/
theorem mem (t : Fin cfg1.N) (i : S4096x20000.Idx) :
    i ∈ ((cfg1.win 4).blk t).view.set ↔ ∀ a : Fin 2, win1_4.index t a * S64x20000.size a ≤ (i a).val
      ∧ (i a).val < win1_4.index t a * S64x20000.size a + S64x20000.size a := by
  show i ∈ ((View.whole main_v31).slice (win1_4.rect t)).set ↔ _
  rw [View.set_slice_whole, Rect.mem_set_unit]
  exact Iff.rfl

/-- After the region the output array is the band's masked logits: row n lies in the block of point n / 64. -/
theorem final (c : Dev nD) :
    (dat1 V c).arrAt 4 cfg1.N = bandCol (V c main_v20 : S4096x1024.Idx → EReal) (V c main_v22 : S256x1024.Idx → EReal)
        (V c main_v23 : S20000x256.Idx → EReal) (V c main_v27 : S4096x1.Idx → EReal) :=
  (dat1 V c).arrAt_eq_of_cover 4 _ (fun t _ => flushed V c t) fun i => by
    have hi0 : (i 0).val < 4096 := (i 0).isLt
    have hi1 : (i 1).val < 20000 := (i 1).isLt
    have hN : cfg1.N = 64 := N_1
    obtain ⟨-, -, -, -, -, -, -, -, e8, e9⟩ := idx ⟨(i 0).val / 64, by rw [hN]; omega⟩
    refine ⟨⟨(i 0).val / 64, by rw [hN]; omega⟩, flush1_4 _, ?_⟩
    rw [mem]
    intro a
    match a with
    | ⟨0, _⟩ =>
      show win1_4.index ⟨(i 0).val / 64, _⟩ (0 : Fin 2) * 64 ≤ (i 0).val ∧ (i 0).val < win1_4.index ⟨(i 0).val / 64, _⟩ (0 : Fin 2) * 64 + 64
      rw [e8]; show (i 0).val / 64 * 64 ≤ (i 0).val ∧ (i 0).val < (i 0).val / 64 * 64 + 64; omega
    | ⟨1, _⟩ =>
      show win1_4.index ⟨(i 0).val / 64, _⟩ (1 : Fin 2) * 20000 ≤ (i 1).val ∧ (i 1).val < win1_4.index ⟨(i 0).val / 64, _⟩ (1 : Fin 2) * 20000 + 20000
      rw [e9]; omega

end Cert.KernelIdeal.Hand.Band0

end
-- ==== Proof.Band1.lean ====
/-
  Band 1's region: 64 grid points, point t computing rows 64·t … 64·t + 63 of the band's masked logits.

  At point t the body loads block t of the rows (64 × 1024), the whole projection matrix (64 × 1024), the whole
  output matrix (20000 × 64) and block t of the mask column (64 × 1). It projects the rows (product with the
  transpose of the projection matrix into a zero accumulator), rounds the 64 × 64 result to a narrower format
  (unchanged on the extended reals), multiplies it against the transpose of the output matrix, and scales row p of
  the 64 × 20000 product by the mask's entry p. Entry (p, q) of what it stores is therefore entry (64·t + p, q) of
  the band's masked logits of the four whole arrays. The blocks tile the output.
-/
import proofs.«120345_j24111946400371_1_alg».proof.Proof.Gen.KernelIdeal.Frame
import proofs.«120345_j24111946400371_1_alg».proof.Proof.KernelDots
import proofs.«120345_j24111946400371_1_alg».proof.Proof.LibContract
import proofs.«120345_j24111946400371_1_alg».proof.Proof.LibColumns
import proofs.«120345_j24111946400371_1_alg».proof.Proof.Spec
import Idealize.ShloMosaic.Lib.Pipeline.Value

set_option maxRecDepth 16384

noncomputable section

namespace Cert.KernelIdeal.Hand.Band1

open Idealize.ShloMosaic Idealize.ShloMosaic.TcCoe Idealize.ShloMosaic.ValueIdx Idealize.SL.Sem
open Idealize.ShloMosaic.Pipeline (Dat)
open Cert.KernelIdeal Cert.KernelIdeal.Gen Cert.LibDense Cert.LibContract Cert.Spec

variable (V : (c : Dev nD) → (b : Ref sig .tc) → Buf (Elt Ideal) ((c : Thread nD τ).loc b))

theorem hz2 : (![0, 0] : Fin 2 → Nat) = fun _ => 0 := funext fun a => by fin_cases a <;> rfl

/-- The body's stored value: the row block projected, multiplied against the output matrix, each row scaled by its
    mask entry. -/
theorem pay (x0 : Vec Ideal S64x1024 .bf16) (x1 : Vec Ideal S64x1024 .bf16) (x2 : Vec Ideal S20000x64 .bf16)
    (x3 : Vec Ideal S64x1 .f32) : k2_pay1 x0 x1 x2 x3 = bandCol x0 x1 x2 x3 := by
  unfold k2_pay1
  simp only [shapeCast_self]
  rw [matmul_zero_eq_mmT _ rfl rfl Dots.proj1_l0 Dots.proj1_l1 Dots.proj1_r0 Dots.proj1_r1 x0 x1]
  rw [truncf_eq]
  rw [matmul_zero_eq_mmT _ rfl rfl Dots.out1_l0 Dots.out1_l1 Dots.out1_r0 Dots.out1_r1 (mmT x0 x1) x2]
  funext i
  obtain ⟨p, q, rfl⟩ : ∃ (p : Fin 64) (q : Fin 20000), i = ix2 p q := ⟨i 0, i 1, eq_ix2 i⟩
  show mmT (mmT x0 x1) x2 (ix2 p q) * broadcastTo S64x20000 x3 broadcasts_S64x1_S64x20000 (ix2 p q) = _
  rw [Cert.LibColumns.broadcastTo_a1_ab_apply]
  rfl

/-- The printed index maps over the grid: the row block, the mask block and the output block move together along
    axis 0; every other block index is zero. -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- Entry (p, d) of the row block at point t is entry (64·t + p, d) of the rows' array. -/
theorem x_read (c : Dev nD) (t : Fin cfg2.N) (p : Fin 64) (d : Fin 1024) (i : S4096x1024.Idx)
    (h0 : (i 0).val = t.val * 64 + p.val) (h1 : (i 1).val = d.val) :
    (iblk2 V c 0 t : S64x1024.Idx → EReal) (ix2 p d) = (V c main_v20 : S4096x1024.Idx → EReal) i := by
  obtain ⟨e0, e1, -⟩ := idx t
  unfold iblk2
  rw [View.read_apply]
  show V c main_v20 _ = V c main_v20 i
  refine congrArg _ (funext fun a => Fin.ext ?_)
  match a with
  | ⟨0, _⟩ => show win2_0.index t (0 : Fin 2) * 64 + 1 * p.val = (i 0).val; omega
  | ⟨1, _⟩ => show win2_0.index t (1 : Fin 2) * 1024 + 1 * d.val = (i 1).val; omega

/-- The projection matrix's block at any point is the whole matrix. -/
theorem p_read (c : Dev nD) (t : Fin cfg2.N) (k : Fin 64) (d : Fin 1024) :
    (iblk2 V c 1 t : S64x1024.Idx → EReal) (ix2 k d) = (V c main_v24 : S64x1024.Idx → EReal) (ix2 k d) := by
  obtain ⟨-, -, e2, e3, -⟩ := idx t
  unfold iblk2
  rw [View.read_apply]
  show V c main_v24 _ = V c main_v24 _
  refine congrArg _ (funext fun a => Fin.ext ?_)
  match a with
  | ⟨0, _⟩ => show win2_1.index t (0 : Fin 2) * 64 + 1 * k.val = k.val; omega
  | ⟨1, _⟩ => show win2_1.index t (1 : Fin 2) * 1024 + 1 * d.val = d.val; omega

/-- The output matrix's block at any point is the whole matrix. -/
theorem o_read (c : Dev nD) (t : Fin cfg2.N) (q : Fin 20000) (k : Fin 64) :
    (iblk2 V c 2 t : S20000x64.Idx → EReal) (ix2 q k) = (V c main_v25 : S20000x64.Idx → EReal) (ix2 q k) := by
  obtain ⟨-, -, -, -, e4, e5, -⟩ := idx t
  unfold iblk2
  rw [View.read_apply]
  show V c main_v25 _ = V c main_v25 _
  refine congrArg _ (funext fun a => Fin.ext ?_)
  match a with
  | ⟨0, _⟩ => show win2_2.index t (0 : Fin 2) * 20000 + 1 * q.val = q.val; omega
  | ⟨1, _⟩ => show win2_2.index t (1 : Fin 2) * 64 + 1 * k.val = k.val; omega

/-- Entry (p, 0) of the mask block at point t is entry (64·t + p, 0) of the mask column. -/
theorem m_read (c : Dev nD) (t : Fin cfg2.N) (p : Fin 64) (i : S4096x1.Idx)
    (h0 : (i 0).val = t.val * 64 + p.val) :
    (iblk2 V c 3 t : S64x1.Idx → EReal) (ix2 p (0 : Fin 1)) = (V c main_v29 : S4096x1.Idx → EReal) i := by
  obtain ⟨-, -, -, -, -, -, e6, e7, -⟩ := idx t
  unfold iblk2
  rw [View.read_apply]
  show V c main_v29 _ = V c main_v29 i
  refine congrArg _ (funext fun a => Fin.ext ?_)
  match a with
  | ⟨0, _⟩ => show win2_3.index t (0 : Fin 2) * 64 + 1 * p.val = (i 0).val; omega
  | ⟨1, _⟩ => show win2_3.index t (1 : Fin 2) * 1 + 1 * (0 : Fin 1).val = (i 1).val; have hi : (i 1).val < 1 := (i 1).isLt; omega

/-- What point t writes back is block t of the band's masked logits of the four whole arrays. -/
theorem flushed (c : Dev nD) (t : Fin cfg2.N) :
    (dat2 V c).flushed 4 t = ((cfg2.win 4).blk t).view.read (Elt Ideal)
      (bandCol (V c main_v20 : S4096x1024.Idx → EReal) (V c main_v24 : S64x1024.Idx → EReal)
        (V c main_v25 : S20000x64.Idx → EReal) (V c main_v29 : S4096x1.Idx → EReal)) := by
  show (cfg2.win 4).cut (grid2.coords t) ((dat2 V c).after 4 t) = _
  rw [after2_4]
  unfold out2_4
  rw [View.canon_unit_zero hz2]
  simp only [View.ld_unit_zero (S := S64x1024) hz2, View.ld_unit_zero (S := S64x1024) hz2,
    View.ld_unit_zero (S := S20000x64) hz2, View.ld_unit_zero (S := S64x1) hz2]
  rw [pay]
  obtain ⟨-, -, -, -, -, -, -, -, e8, e9⟩ := idx t
  funext y
  obtain ⟨p, q, rfl⟩ : ∃ (p : Fin 64) (q : Fin 20000), y = ix2 p q := ⟨y 0, y 1, eq_ix2 y⟩
  have hE0 : ((((cfg2.win 4).blk t).view.emb (ix2 p q)) 0).val = win2_4.index t (0 : Fin 2) * 64 + 1 * p.val := rfl
  have hE1 : ((((cfg2.win 4).blk t).view.emb (ix2 p q)) 1).val = win2_4.index t (1 : Fin 2) * 20000 + 1 * q.val := rfl
  show bandCol (iblk2 V c 0 t : S64x1024.Idx → EReal) (iblk2 V c 1 t : S64x1024.Idx → EReal)
      (iblk2 V c 2 t : S20000x64.Idx → EReal) (iblk2 V c 3 t : S64x1.Idx → EReal) (ix2 p q)
    = bandCol (V c main_v20 : S4096x1024.Idx → EReal) (V c main_v24 : S64x1024.Idx → EReal)
        (V c main_v25 : S20000x64.Idx → EReal) (V c main_v29 : S4096x1.Idx → EReal) (((cfg2.win 4).blk t).view.emb (ix2 p q))
  have hrow : ((((cfg2.win 4).blk t).view.emb (ix2 p q)) 0).val = t.val * 64 + p.val := by rw [hE0, e8]; omega
  have hq : ∀ k : Fin 64, (ix2 ((((cfg2.win 4).blk t).view.emb (ix2 p q)) 1) k : S20000x64.Idx) = ix2 q k :=
    fun k => funext fun a => Fin.ext (by
      match a with
      | ⟨0, _⟩ => show ((((cfg2.win 4).blk t).view.emb (ix2 p q)) 1).val = q.val; rw [hE1, e9]; omega
      | ⟨1, _⟩ => rfl)
  unfold bandCol mmT
  refine congrArg₂ (fun a b : EReal => a * b) (Finset.sum_congr rfl fun k _ => ?_)
    (m_read V c t p (ix2 ((((cfg2.win 4).blk t).view.emb (ix2 p q)) 0) (0 : Fin 1)) hrow)
  refine congrArg₂ (fun a b : EReal => a * b) (Finset.sum_congr rfl fun d _ => ?_)
    ((o_read V c t q k).trans (congrArg _ (hq k).symm))
  exact congrArg₂ (fun a b : EReal => a * b)
    (x_read V c t p d (ix2 ((((cfg2.win 4).blk t).view.emb (ix2 p q)) 0) d) hrow rfl) (p_read V c t k d)

/-- An index of the output lies in point t's block iff each coordinate lies in the block's range on its axis. -/
theorem mem (t : Fin cfg2.N) (i : S4096x20000.Idx) :
    i ∈ ((cfg2.win 4).blk t).view.set ↔ ∀ a : Fin 2, win2_4.index t a * S64x20000.size a ≤ (i a).val
      ∧ (i a).val < win2_4.index t a * S64x20000.size a + S64x20000.size a := by
  show i ∈ ((View.whole main_v32).slice (win2_4.rect t)).set ↔ _
  rw [View.set_slice_whole, Rect.mem_set_unit]
  exact Iff.rfl

/-- After the region the output array is the band's masked logits: row n lies in the block of point n / 64. -/
theorem final (c : Dev nD) :
    (dat2 V c).arrAt 4 cfg2.N = bandCol (V c main_v20 : S4096x1024.Idx → EReal) (V c main_v24 : S64x1024.Idx → EReal)
        (V c main_v25 : S20000x64.Idx → EReal) (V c main_v29 : S4096x1.Idx → EReal) :=
  (dat2 V c).arrAt_eq_of_cover 4 _ (fun t _ => flushed V c t) fun i => by
    have hi0 : (i 0).val < 4096 := (i 0).isLt
    have hi1 : (i 1).val < 20000 := (i 1).isLt
    have hN : cfg2.N = 64 := N_2
    obtain ⟨-, -, -, -, -, -, -, -, e8, e9⟩ := idx ⟨(i 0).val / 64, by rw [hN]; omega⟩
    refine ⟨⟨(i 0).val / 64, by rw [hN]; omega⟩, flush2_4 _, ?_⟩
    rw [mem]
    intro a
    match a with
    | ⟨0, _⟩ =>
      show win2_4.index ⟨(i 0).val / 64, _⟩ (0 : Fin 2) * 64 ≤ (i 0).val ∧ (i 0).val < win2_4.index ⟨(i 0).val / 64, _⟩ (0 : Fin 2) * 64 + 64
      rw [e8]; show (i 0).val / 64 * 64 ≤ (i 0).val ∧ (i 0).val < (i 0).val / 64 * 64 + 64; omega
    | ⟨1, _⟩ =>
      show win2_4.index ⟨(i 0).val / 64, _⟩ (1 : Fin 2) * 20000 ≤ (i 1).val ∧ (i 1).val < win2_4.index ⟨(i 0).val / 64, _⟩ (1 : Fin 2) * 20000 + 20000
      rw [e9]; omega

end Cert.KernelIdeal.Hand.Band1

end
-- ==== Proof.KernelValue.lean ====
/-
  The kernel's six results as functions of the arguments, on the extended reals.

  Each float result is one region's output array; the regions that run later leave it alone, and the arrays a region
  fetches are the host's (no earlier region writes them). So the head's logits are `mmT` of the rows and the head
  matrix, and each band's result is the band's masked logits of the rows, its two matrices and its mask column, the
  column being the band's bits as floats re-laid as 4096 × 1. The integer results are written by the host before any
  region and never touched again.
-/
import proofs.«120345_j24111946400371_1_alg».proof.Proof.KernelRun
import proofs.«120345_j24111946400371_1_alg».proof.Proof.KernelHost
import proofs.«120345_j24111946400371_1_alg».proof.Proof.Head
import proofs.«120345_j24111946400371_1_alg».proof.Proof.Band0
import proofs.«120345_j24111946400371_1_alg».proof.Proof.Band1

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen Cert.LibDense Cert.LibContract Cert.Spec

variable (m : (ℓ : Loc nD τ sig) → Buf (Elt Ideal) ℓ) (ρ : Dev nD → PrngReg)

/-- The rows: the input re-laid as 4096 × 1024. -/
abbrev rows (c : Dev nD) : S4096x1024.Idx → EReal :=
  shapeCast _ (m ((c : Thread nD τ).loc main_arg0)) shapeCasts_S2x2048x1024_S4096x1024

/-- Region 0 leaves an array it only fetches as it found it. -/
theorem W10_in (c : Dev nD) (w : Fin cfg0.W) (hin : (cfg0.win w).isOut = false) :
    W10 m ρ c (Proc.devRef .tc (Pipeline.arrRef spec0 w)) = W9 m ρ c (Proc.devRef .tc (Pipeline.arrRef spec0 w)) :=
  (W10_arr m ρ c w).trans (((dat0 (V9 m ρ) c).arrAt_in w hin cfg0.N).trans (A_eq0 (V9 m ρ) c w))

/-- So does region 1. -/
theorem W11_in (c : Dev nD) (w : Fin cfg1.W) (hin : (cfg1.win w).isOut = false) :
    W11 m ρ c (Proc.devRef .tc (Pipeline.arrRef spec1 w)) = W10 m ρ c (Proc.devRef .tc (Pipeline.arrRef spec1 w)) :=
  (W11_arr m ρ c w).trans (((dat1 (V10 m ρ) c).arrAt_in w hin cfg1.N).trans (A_eq1 (V10 m ρ) c w))

/-- The rows are fetched by every region and written by none. -/
theorem W10_rows (c : Dev nD) : W10 m ρ c (Proc.devRef .tc main_v20) = W9 m ρ c (Proc.devRef .tc main_v20) :=
  W10_in m ρ c 0 rfl
theorem W11_rows (c : Dev nD) : W11 m ρ c (Proc.devRef .tc main_v20) = W10 m ρ c (Proc.devRef .tc main_v20) :=
  W11_in m ρ c 0 rfl

/-- The head's logits. -/
theorem val_head (c : Dev nD) : W12 m ρ c (Proc.devRef .tc main_v30)
    = mmT (rows m c) ((m ((c : Thread nD τ).loc main_arg2)) : S10002x1024.Idx → EReal) :=
  calc W12 m ρ c (Proc.devRef .tc main_v30)
    _ = W11 m ρ c (Proc.devRef .tc main_v30) := W12_of_ne m ρ c main_v30 (by decide)
    _ = W10 m ρ c (Proc.devRef .tc main_v30) := W11_of_ne m ρ c main_v30 (by decide)
    _ = (dat0 (V9 m ρ) c).arrAt 2 cfg0.N := W10_arr m ρ c 2
    _ = mmT (V9 m ρ c main_v20 : S4096x1024.Idx → EReal) (V9 m ρ c main_v21 : S10002x1024.Idx → EReal) := head_final (V9 m ρ) c
    _ = _ := by
      show mmT (W9 m ρ c (Proc.devRef .tc main_v20) : S4096x1024.Idx → EReal) (W9 m ρ c (Proc.devRef .tc main_v21) : S10002x1024.Idx → EReal) = _
      rw [host_rows, host_headw]
      rfl

/-- Band 0's masked logits. -/
theorem val_band0 (c : Dev nD) : W12 m ρ c (Proc.devRef .tc main_v31)
    = band (rows m c) ((m ((c : Thread nD τ).loc main_arg3)) : S256x1024.Idx → EReal) ((m ((c : Thread nD τ).loc main_arg4)) : S20000x256.Idx → EReal)
        (uitofp (F := Ideal) .f32 (inBand0 (F := Ideal) (m ((c : Thread nD τ).loc main_arg1))) : S4096.Idx → EReal) :=
  calc W12 m ρ c (Proc.devRef .tc main_v31)
    _ = W11 m ρ c (Proc.devRef .tc main_v31) := W12_of_ne m ρ c main_v31 (by decide)
    _ = (dat1 (V10 m ρ) c).arrAt 4 cfg1.N := W11_arr m ρ c 4
    _ = bandCol (V10 m ρ c main_v20 : S4096x1024.Idx → EReal) (V10 m ρ c main_v22 : S256x1024.Idx → EReal)
          (V10 m ρ c main_v23 : S20000x256.Idx → EReal) (V10 m ρ c main_v27 : S4096x1.Idx → EReal) := Band0.final (V10 m ρ) c
    _ = _ := by
      show bandCol (W10 m ρ c (Proc.devRef .tc main_v20) : S4096x1024.Idx → EReal) (W10 m ρ c (Proc.devRef .tc main_v22) : S256x1024.Idx → EReal)
          (W10 m ρ c (Proc.devRef .tc main_v23) : S20000x256.Idx → EReal) (W10 m ρ c (Proc.devRef .tc main_v27) : S4096x1.Idx → EReal) = _
      rw [W10_rows, W10_of_ne m ρ c main_v22 (by decide), W10_of_ne m ρ c main_v23 (by decide),
        W10_of_ne m ρ c main_v27 (by decide), host_rows, host_proj0, host_out0, host_mask0]
      exact bandCol_shapeCast _ _ _ _ _

/-- Band 1's masked logits. -/
theorem val_band1 (c : Dev nD) : W12 m ρ c (Proc.devRef .tc main_v32)
    = band (rows m c) ((m ((c : Thread nD τ).loc main_arg5)) : S64x1024.Idx → EReal) ((m ((c : Thread nD τ).loc main_arg6)) : S20000x64.Idx → EReal)
        (uitofp (F := Ideal) .f32 (inBand1 (F := Ideal) (m ((c : Thread nD τ).loc main_arg1))) : S4096.Idx → EReal) :=
  calc W12 m ρ c (Proc.devRef .tc main_v32)
    _ = (dat2 (V11 m ρ) c).arrAt 4 cfg2.N := W12_arr m ρ c 4
    _ = bandCol (V11 m ρ c main_v20 : S4096x1024.Idx → EReal) (V11 m ρ c main_v24 : S64x1024.Idx → EReal)
          (V11 m ρ c main_v25 : S20000x64.Idx → EReal) (V11 m ρ c main_v29 : S4096x1.Idx → EReal) := Band1.final (V11 m ρ) c
    _ = _ := by
      show bandCol (W11 m ρ c (Proc.devRef .tc main_v20) : S4096x1024.Idx → EReal) (W11 m ρ c (Proc.devRef .tc main_v24) : S64x1024.Idx → EReal)
          (W11 m ρ c (Proc.devRef .tc main_v25) : S20000x64.Idx → EReal) (W11 m ρ c (Proc.devRef .tc main_v29) : S4096x1.Idx → EReal) = _
      rw [W11_rows, W11_of_ne m ρ c main_v24 (by decide), W11_of_ne m ρ c main_v25 (by decide),
        W11_of_ne m ρ c main_v29 (by decide),
        W10_rows, W10_of_ne m ρ c main_v24 (by decide), W10_of_ne m ρ c main_v25 (by decide),
        W10_of_ne m ρ c main_v29 (by decide), host_rows, host_proj1, host_out1, host_mask1]
      exact bandCol_shapeCast _ _ _ _ _

/-- A buffer no region touches ends as the host left it. -/
theorem W12_host (c : Dev nD) (b : Ref sig .tc) (h2 : ∀ w, Pipeline.arrRef spec2 w ≠ b) (h1 : ∀ w, Pipeline.arrRef spec1 w ≠ b)
    (h0 : ∀ w, Pipeline.arrRef spec0 w ≠ b) : W12 m ρ c (Proc.devRef .tc b) = W9 m ρ c (Proc.devRef .tc b) :=
  ((W12_of_ne m ρ c b h2).trans (W11_of_ne m ρ c b h1)).trans (W10_of_ne m ρ c b h0)

/-- The run, read: each result at its function of the arguments, the arguments unchanged. -/
theorem run_values : θ_run defs (onTc (τ := τ) (main (F := Ideal))) ⟨m, fun _ => 0, ρ⟩ (fun r => ∀ c : Dev nD,
      r.2.mem ((c : Thread nD τ).loc main_v30) = mmT (rows m c) ((m ((c : Thread nD τ).loc main_arg2)) : S10002x1024.Idx → EReal)
      ∧ r.2.mem ((c : Thread nD τ).loc main_v31) = band (rows m c) ((m ((c : Thread nD τ).loc main_arg3)) : S256x1024.Idx → EReal) ((m ((c : Thread nD τ).loc main_arg4)) : S20000x256.Idx → EReal)
          (uitofp (F := Ideal) .f32 (inBand0 (F := Ideal) (m ((c : Thread nD τ).loc main_arg1))) : S4096.Idx → EReal)
      ∧ r.2.mem ((c : Thread nD τ).loc main_v32) = band (rows m c) ((m ((c : Thread nD τ).loc main_arg5)) : S64x1024.Idx → EReal) ((m ((c : Thread nD τ).loc main_arg6)) : S20000x64.Idx → EReal)
          (uitofp (F := Ideal) .f32 (inBand1 (F := Ideal) (m ((c : Thread nD τ).loc main_arg1))) : S4096.Idx → EReal)
      ∧ r.2.mem ((c : Thread nD τ).loc main_v13) = select (inBand0 (F := Ideal) (m ((c : Thread nD τ).loc main_arg1))) (broadcastInDim S4096 ![] bcast_S_S4096 (id (constantI S_ 32 10000#32)))
          (select (inBand1 (F := Ideal) (m ((c : Thread nD τ).loc main_arg1))) (broadcastInDim S4096 ![] bcast_S_S4096 (id (constantI S_ 32 10001#32)))
            (tgt (F := Ideal) (m ((c : Thread nD τ).loc main_arg1))))
      ∧ r.2.mem ((c : Thread nD τ).loc main_v16) = select (inBand0 (F := Ideal) (m ((c : Thread nD τ).loc main_arg1)))
          (subi (tgt (F := Ideal) (m ((c : Thread nD τ).loc main_arg1))) (broadcastInDim S4096 ![] bcast_S_S4096 (constantI S_ 32 10000#32)))
          (broadcastInDim S4096 ![] bcast_S_S4096 (id (constantI S_ 32 0#32)))
      ∧ r.2.mem ((c : Thread nD τ).loc main_v19) = select (inBand1 (F := Ideal) (m ((c : Thread nD τ).loc main_arg1)))
          (subi (tgt (F := Ideal) (m ((c : Thread nD τ).loc main_arg1))) (broadcastInDim S4096 ![] bcast_S_S4096 (constantI S_ 32 30000#32)))
          (broadcastInDim S4096 ![] bcast_S_S4096 (id (constantI S_ 32 0#32)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) :=
  (θ_run defs _ _).mono (fun r h c =>
    ⟨(h c _ (mem_uc main_v30 (by decide))).trans (val_head m ρ c),
     (h c _ (mem_uc main_v31 (by decide))).trans (val_band0 m ρ c),
     (h c _ (mem_uc main_v32 (by decide))).trans (val_band1 m ρ c),
     (h c _ (mem_uc main_v13 (by decide))).trans ((W12_host m ρ c main_v13 (by decide) (by decide) (by decide)).trans (host_class m ρ c)),
     (h c _ (mem_uc main_v16 (by decide))).trans ((W12_host m ρ c main_v16 (by decide) (by decide) (by decide)).trans (host_pos0 m ρ c)),
     (h c _ (mem_uc main_v19 (by decide))).trans ((W12_host m ρ c main_v19 (by decide) (by decide) (by decide)).trans (host_pos1 m ρ c)),
     (h c _ (mem_uc main_arg0 (by decide))).trans (W12_main_arg0 m ρ c),
     (h c _ (mem_uc main_arg1 (by decide))).trans (W12_main_arg1 m ρ c),
     (h c _ (mem_uc main_arg2 (by decide))).trans (W12_main_arg2 m ρ c),
     (h c _ (mem_uc main_arg3 (by decide))).trans (W12_main_arg3 m ρ c),
     (h c _ (mem_uc main_arg4 (by decide))).trans (W12_main_arg4 m ρ c),
     (h c _ (mem_uc main_arg5 (by decide))).trans (W12_main_arg5 m ρ c),
     (h c _ (mem_uc main_arg6 (by decide))).trans (W12_main_arg6 m ρ c)⟩)
    (run_all m ρ)

end Cert.KernelIdeal.Hand

end
-- ==== Proof.RefValue.lean ====
/-
  The reference's three float results, entry by entry.

  The reference contracts axis 1 of both operands in each of its five products, so each is a product with a
  transpose: the head's logits are `mmT x w`, a band's are `mmT (mmT x p) o`. The band's mask reaches entry (n, v)
  through a 4096 × 1 column spread over the 20000 columns: it is the band bit of row n as a float. So each band's
  result is `band x p o μ` with μ the band's bits as floats.
-/
import proofs.«120345_j24111946400371_1_alg».proof.Proof.Gen.ReferenceIdeal.Read
import proofs.«120345_j24111946400371_1_alg».proof.Proof.LibContract
import proofs.«120345_j24111946400371_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.LibDense Cert.LibContract Cert.Spec

/-- The head's logits: the rows times the transpose of the head matrix. -/
theorem head_eq (x0 : (⟨S2x2048x1024, .f32⟩ : BufTy).Contents (Elt Ideal)) (x2 : (⟨S10002x1024, .f32⟩ : BufTy).Contents (Elt Ideal)) :
    val_main_v20 (F := Ideal) x0 x2
      = mmT (val_main_v0 (F := Ideal) x0 : S4096x1024.Idx → EReal) (x2 : S10002x1024.Idx → EReal) := by
  unfold val_main_v20
  exact dotGeneral_eq_mmT _ rfl rfl lhs_main_v20_0 lhs_main_v20_1 rhs_main_v20_0 rhs_main_v20_1 _ _

/-- Band 0's masked logits. -/
theorem band0_eq (x0 : (⟨S2x2048x1024, .f32⟩ : BufTy).Contents (Elt Ideal)) (x1 : (⟨S2x2048, .i32⟩ : BufTy).Contents (Elt Ideal))
    (x3 : (⟨S256x1024, .f32⟩ : BufTy).Contents (Elt Ideal)) (x4 : (⟨S20000x256, .f32⟩ : BufTy).Contents (Elt Ideal)) :
    val_main_v26 (F := Ideal) x0 x1 x3 x4
      = band (val_main_v0 (F := Ideal) x0 : S4096x1024.Idx → EReal) (x3 : S256x1024.Idx → EReal) (x4 : S20000x256.Idx → EReal)
          (uitofp (F := Ideal) .f32 (val_main_v6 (F := Ideal) x1) : S4096.Idx → EReal) := by
  funext i
  rw [val_main_v26_apply, val_main_v25_apply, val_main_v24_apply, val_main_v23_apply]
  unfold val_main_v22 val_main_v21
  rw [dotGeneral_eq_mmT _ rfl rfl lhs_main_v21_0 lhs_main_v21_1 rhs_main_v21_0 rhs_main_v21_1,
    dotGeneral_eq_mmT _ rfl rfl lhs_main_v22_0 lhs_main_v22_1 rhs_main_v22_0 rhs_main_v22_1]
  have e : idx_main_v23 (idx_main_v25 i) = ix1 (i 0) := funext fun a => Fin.ext (by
    match a with
    | ⟨0, _⟩ => rfl)
  rw [e]
  rfl

/-- Band 1's masked logits. -/
theorem band1_eq (x0 : (⟨S2x2048x1024, .f32⟩ : BufTy).Contents (Elt Ideal)) (x1 : (⟨S2x2048, .i32⟩ : BufTy).Contents (Elt Ideal))
    (x5 : (⟨S64x1024, .f32⟩ : BufTy).Contents (Elt Ideal)) (x6 : (⟨S20000x64, .f32⟩ : BufTy).Contents (Elt Ideal)) :
    val_main_v32 (F := Ideal) x0 x1 x5 x6
      = band (val_main_v0 (F := Ideal) x0 : S4096x1024.Idx → EReal) (x5 : S64x1024.Idx → EReal) (x6 : S20000x64.Idx → EReal)
          (uitofp (F := Ideal) .f32 (val_main_v11 (F := Ideal) x1) : S4096.Idx → EReal) := by
  funext i
  rw [val_main_v32_apply, val_main_v31_apply, val_main_v30_apply, val_main_v29_apply]
  unfold val_main_v28 val_main_v27
  rw [dotGeneral_eq_mmT _ rfl rfl lhs_main_v27_0 lhs_main_v27_1 rhs_main_v27_0 rhs_main_v27_1,
    dotGeneral_eq_mmT _ rfl rfl lhs_main_v28_0 lhs_main_v28_1 rhs_main_v28_0 rhs_main_v28_1]
  have e : idx_main_v29 (idx_main_v31 i) = ix1 (i 0) := funext fun a => Fin.ext (by
    match a with
    | ⟨0, _⟩ => rfl)
  rw [e]
  rfl

end Cert.ReferenceIdeal.RefValue

end
-- ==== Proof.lean ====
/-
  An adaptive softmax's dense part: the head's logits and two bands' masked logits, with the remapped targets.

  With x the 4096 × 1024 rows (the input re-laid), the kernel and the reference both compute
    head (n, v)  = ∑_d x(n,d) · w(v,d)                                   (4096 × 10002),
    band (n, v)  = (∑_k (∑_d x(n,d) · p(k,d)) · o(v,k)) · μ(n)           (4096 × 20000, twice: K = 256 and K = 64),
  where μ(n) is 1 when row n's target lies in the band and 0 otherwise, and three integer vectors that are
  selections on the two band bits. The kernel computes the float results in three grid regions, block of rows by
  block of rows, from operands rounded to a narrower float format, with the mask fed as a 4096 × 1 column; the
  reference uses whole-array contractions and spreads the mask over the columns. On the extended reals rounding is
  the identity, a product into a zero accumulator and the host's contraction are the same plain sum, the order and
  tiling of the sums do not matter, and both masks are the same bit as a float: the two programs agree entry by entry.
  No algebraic law beyond re-indexing is used, so the finiteness of the inputs is never opened. The integer results
  come from the same host operations on both sides.
-/
import proofs.«120345_j24111946400371_1_alg».proof.Defs
import proofs.«120345_j24111946400371_1_alg».proof.Proof.Gen.Kernel
import proofs.«120345_j24111946400371_1_alg».proof.Proof.Gen.Kernel.Skeleton
import proofs.«120345_j24111946400371_1_alg».proof.Proof.Gen.Kernel.Launch
import proofs.«120345_j24111946400371_1_alg».proof.Proof.Gen.Kernel.Points
import proofs.«120345_j24111946400371_1_alg».proof.Proof.Gen.Kernel.Frame
import proofs.«120345_j24111946400371_1_alg».proof.Proof.Gen.KernelIdeal
import proofs.«120345_j24111946400371_1_alg».proof.Proof.Gen.KernelIdeal.Skeleton
import proofs.«120345_j24111946400371_1_alg».proof.Proof.Gen.KernelIdeal.Launch
import proofs.«120345_j24111946400371_1_alg».proof.Proof.Gen.KernelIdeal.Points
import proofs.«120345_j24111946400371_1_alg».proof.Proof.Gen.KernelIdeal.Frame
import proofs.«120345_j24111946400371_1_alg».proof.Proof.Gen.ReferenceIdeal
import proofs.«120345_j24111946400371_1_alg».proof.Proof.Gen.ReferenceIdeal.Run
import proofs.«120345_j24111946400371_1_alg».proof.Proof.Gen.ReferenceIdeal.Read
import proofs.«120345_j24111946400371_1_alg».proof.Proof.Gen.Pre_finite_inputs
import proofs.«120345_j24111946400371_1_alg».proof.Proof.KernelValue
import proofs.«120345_j24111946400371_1_alg».proof.Proof.RefValue
import Idealize.ShloMosaic.Adequacy
import Idealize.ShloMosaic.Init

noncomputable section

namespace Cert.Proof

open Idealize.ShloMosaic Idealize.SL.Sem

/-- The kernel as printed runs and leaves its arguments alone. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference is a straight line of host operations: its run, with the results dropped. -/
theorem frame_ri : Cert.frame_ReferenceIdeal := fun m ρ _ =>
  (θ_run Cert.ReferenceIdeal.defs _ _).mono (fun _ h c => (h c).2.2.2.2.2.2)
    (Cert.ReferenceIdeal.Value.run (F := Ideal) m ρ)

/-- The idealization rewrote no operation: nothing to preserve. -/
theorem preserves : Cert.preserves_Kernel_KernelIdeal := trivial

/-- From memories that agree on the arguments both programs end with the same six results: the head's logits
    `mmT x w`, each band's masked logits `band x p o μ`, and the three selections on the band bits. -/
theorem algebraic : Cert.algebraic_KernelIdeal_ReferenceIdeal := by
  intro m ρ m' ρ' _ hagree
  refine ⟨_, _, _, _, _, _, Cert.KernelIdeal.Hand.run_values m ρ, ?_⟩
  refine (θ_run Cert.ReferenceIdeal.defs _ _).mono (fun _ h c => ?_)
    (Cert.ReferenceIdeal.Value.run (F := Ideal) m' ρ')
  obtain ⟨h0, h1, h2, h3, h4, h5, hargs⟩ := h c
  obtain ⟨a0, a1, a2, a3, a4, a5, a6⟩ := hagree c
  refine ⟨h0.trans ?_, h1.trans ?_, h2.trans ?_, h3.trans ?_, h4.trans ?_, h5.trans ?_, hargs⟩
  · rw [a0, a2, Cert.ReferenceIdeal.Read.val_main_v20_eq, Cert.ReferenceIdeal.RefValue.head_eq]
    rfl
  · rw [a0, a1, a3, a4, Cert.ReferenceIdeal.Read.val_main_v26_eq, Cert.ReferenceIdeal.RefValue.band0_eq]
    rfl
  · rw [a0, a1, a5, a6, Cert.ReferenceIdeal.Read.val_main_v32_eq, Cert.ReferenceIdeal.RefValue.band1_eq]
    rfl
  · rw [a1]
    rfl
  · rw [a1]
    rfl
  · rw [a1]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
